-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v101)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v101) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x16 : Shape := ⟨2, ![256, 16]⟩
abbrev S16 : Shape := ⟨1, ![16]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x16 : S_.BroadcastsInDim S256x16 (![] : Fin 0 → Fin S256x16.rank)
  reducesTo_S256x16_S_d0_1 : S256x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S16 .f32) (main_v13 : IVec S_ 1) (main_v16 : IVec S256x16 1) : IVec S_ 1 :=
  let main_c_5 : IVec S_ 1 := constantI S_ 1 1#1
  let main_v17 : IVec S_ 1 := (fun x v => Host.reduce IntOp.andi x v reducesTo_S256x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S50000x256 .f32) (main_arg1 : IVec S2x800000 32) (main_arg2 : FVec F S256x256 .f32) (main_arg3 : FVec F S256 .f32) (main_arg4 : FVec F S256x16 .f32) (main_arg5 : FVec F S16 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x16 .f32 := Host.absf main_arg4
  let main_cst_4 : FVec F S_ .f32 := constant S_ .f32 0x7F800000#32
  let main_v15 : FVec F S256x16 .f32 := broadcastInDim S256x16 ![] bcast_S_S256x16 main_cst_4
  let main_v16 : IVec S256x16 1 := cmpf .olt main_v14 main_v15
  fn_part1 (F := F) main_arg5 main_v13 main_v16
-- ==== Kernel.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x16 : Shape := ⟨2, ![256, 16]⟩
abbrev S16 : Shape := ⟨1, ![16]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S2000x256 : Shape := ⟨2, ![2000, 256]⟩
abbrev S850000x256 : Shape := ⟨2, ![850000, 256]⟩
abbrev S1x256 : Shape := ⟨2, ![1, 256]⟩
abbrev S50000x16 : Shape := ⟨2, ![50000, 16]⟩
abbrev S2000x16 : Shape := ⟨2, ![2000, 16]⟩
abbrev S850000x16 : Shape := ⟨2, ![850000, 16]⟩
abbrev S1x16 : Shape := ⟨2, ![1, 16]⟩
abbrev S50000x1 : Shape := ⟨2, ![50000, 1]⟩

abbrev nBuf : Space → Nat
  | .hbm => 139
  | .vmem => 10
  | .smem => 0
  | _ => 0

abbrev hbmTy0_0 (i : Nat) : BufTy := match i % 128 with
  | 0 => ⟨S50000x256, .f32⟩
  | 1 => ⟨S2x800000, .i32⟩
  | 2 => ⟨S256x256, .f32⟩
  | 3 => ⟨S256, .f32⟩
  | 4 => ⟨S256x16, .f32⟩
  | 5 => ⟨S16, .f32⟩
  | 6 => ⟨S1x800000, .i32⟩
  | 7 => ⟨S800000, .i32⟩
  | 8 => ⟨S1x800000, .i32⟩
  | 9 => ⟨S800000, .i32⟩
  | 10 => ⟨S50000, .i32⟩
  | 11 => ⟨S850000, .i32⟩
  | 12 => ⟨S850000, .i32⟩
  | 13 => ⟨S_, .f32⟩
  | 14 => ⟨S850000, .f32⟩
  | 15 => ⟨S_, .f32⟩
  | 16 => ⟨S50000, .f32⟩
  | 17 => ⟨S850000x1, .i32⟩
  | 18 => ⟨S50000, .f32⟩
  | 19 => ⟨S_, .f32⟩
  | 20 => ⟨S50000, .f32⟩
  | 21 => ⟨S50000, .i1⟩
  | 22 => ⟨S50000, .f32⟩
  | 23 => ⟨S_, .f32⟩
  | 24 => ⟨S_, .f32⟩
  | 25 => ⟨S50000, .f32⟩
  | 26 => ⟨S50000, .f32⟩
  | 27 => ⟨S_, .i32⟩
  | 28 => ⟨S850000, .i32⟩
  | 29 => ⟨S850000, .i1⟩
  | 30 => ⟨S_, .i32⟩
  | 31 => ⟨S850000, .i32⟩
  | 32 => ⟨S850000, .i32⟩
  | 33 => ⟨S850000, .i32⟩
  | 34 => ⟨S850000x1, .i32⟩
  | 35 => ⟨S850000, .f32⟩
  | 36 => ⟨S_, .i32⟩
  | 37 => ⟨S850000, .i32⟩
  | 38 => ⟨S850000, .i1⟩
  | 39 => ⟨S_, .i32⟩
  | 40 => ⟨S850000, .i32⟩
  | 41 => ⟨S850000, .i32⟩
  | 42 => ⟨S850000, .i32⟩
  | 43 => ⟨S850000x1, .i32⟩
  | 44 => ⟨S850000, .f32⟩
  | 45 => ⟨S850000, .f32⟩
  | 46 => ⟨S50000x256, .f32⟩
  | 47 => ⟨S_, .i32⟩
  | 48 => ⟨S850000, .i32⟩
  | 49 => ⟨S850000, .i1⟩
  | 50 => ⟨S_, .i32⟩
  | 51 => ⟨S850000, .i32⟩
  | 52 => ⟨S850000, .i32⟩
  | 53 => ⟨S850000, .i32⟩
  | 54 => ⟨S850000x1, .i32⟩
  | 55 => ⟨S850000x256, .f32⟩
  | 56 => ⟨S850000x1, .f32⟩
  | 57 => ⟨S850000x256, .f32⟩
  | 58 => ⟨S850000x256, .f32⟩
  | 59 => ⟨S_, .f32⟩
  | 60 => ⟨S50000x256, .f32⟩
  | 61 => ⟨S850000x1, .i32⟩
  | 62 => ⟨S50000x256, .f32⟩
  | 63 => ⟨S1x256, .f32⟩
  | 64 => ⟨S50000x256, .f32⟩
  | 65 => ⟨S50000x256, .f32⟩
  | 66 => ⟨S_, .f32⟩
  | 67 => ⟨S50000x256, .f32⟩
  | 68 => ⟨S50000x256, .f32⟩
  | 69 => ⟨S50000, .i32⟩
  | 70 => ⟨S850000, .i32⟩
  | 71 => ⟨S850000, .i32⟩
  | 72 => ⟨S_, .f32⟩
  | 73 => ⟨S850000, .f32⟩
  | 74 => ⟨S_, .f32⟩
  | 75 => ⟨S50000, .f32⟩
  | 76 => ⟨S850000x1, .i32⟩
  | 77 => ⟨S50000, .f32⟩
  | 78 => ⟨S_, .f32⟩
  | 79 => ⟨S50000, .f32⟩
  | 80 => ⟨S50000, .i1⟩
  | 81 => ⟨S50000, .f32⟩
  | 82 => ⟨S_, .f32⟩
  | 83 => ⟨S_, .f32⟩
  | 84 => ⟨S50000, .f32⟩
  | 85 => ⟨S50000, .f32⟩
  | 86 => ⟨S_, .i32⟩
  | 87 => ⟨S850000, .i32⟩
  | 88 => ⟨S850000, .i1⟩
  | 89 => ⟨S_, .i32⟩
  | 90 => ⟨S850000, .i32⟩
  | 91 => ⟨S850000, .i32⟩
  | 92 => ⟨S850000, .i32⟩
  | 93 => ⟨S850000x1, .i32⟩
  | 94 => ⟨S850000, .f32⟩
  | 95 => ⟨S_, .i32⟩
  | 96 => ⟨S850000, .i32⟩
  | 97 => ⟨S850000, .i1⟩
  | 98 => ⟨S_, .i32⟩
  | 99 => ⟨S850000, .i32⟩
  | 100 => ⟨S850000, .i32⟩
  | 101 => ⟨S850000, .i32⟩
  | 102 => ⟨S850000x1, .i32⟩
  | 103 => ⟨S850000, .f32⟩
  | 104 => ⟨S850000, .f32⟩
  | 105 => ⟨S50000x16, .f32⟩
  | 106 => ⟨S_, .i32⟩
  | 107 => ⟨S850000, .i32⟩
  | 108 => ⟨S850000, .i1⟩
  | 109 => ⟨S_, .i32⟩
  | 110 => ⟨S850000, .i32⟩
  | 111 => ⟨S850000, .i32⟩
  | 112 => ⟨S850000, .i32⟩
  | 113 => ⟨S850000x1, .i32⟩
  | 114 => ⟨S850000x16, .f32⟩
  | 115 => ⟨S850000x1, .f32⟩
  | 116 => ⟨S850000x16, .f32⟩
  | 117 => ⟨S850000x16, .f32⟩
  | 118 => ⟨S_, .f32⟩
  | 119 => ⟨S50000x16, .f32⟩
  | 120 => ⟨S850000x1, .i32⟩
  | 121 => ⟨S50000x16, .f32⟩
  | 122 => ⟨S1x16, .f32⟩
  | 123 => ⟨S50000x16, .f32⟩
  | 124 => ⟨S50000x16, .f32⟩
  | 125 => ⟨S_, .f32⟩
  | 126 => ⟨S50000, .f32⟩
  | 127 => ⟨S_, .f32⟩
  | _ => ⟨S50000x256, .f32⟩

abbrev hbmTy0_1 (i : Nat) : BufTy := match i % 128 with
  | 0 => ⟨S50000, .f32⟩
  | 1 => ⟨S50000, .f32⟩
  | 2 => ⟨S50000x1, .f32⟩
  | 3 => ⟨S50000x16, .f32⟩
  | 4 => ⟨S50000x16, .f32⟩
  | 5 => ⟨S50000x16, .f32⟩
  | 6 => ⟨S_, .f32⟩
  | 7 => ⟨S50000, .f32⟩
  | 8 => ⟨S50000x1, .f32⟩
  | 9 => ⟨S50000x16, .f32⟩
  | 10 => ⟨S50000x16, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | .local _ .vmem, ⟨0, _⟩ => ⟨S2000x256, .f32⟩
  | .local _ .vmem, ⟨1, _⟩ => ⟨S2000x256, .f32⟩
  | .local _ .vmem, ⟨2, _⟩ => ⟨S256x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S256x16, .f32⟩
  | .local _ .vmem, ⟨8, _⟩ => ⟨S2000x16, .f32⟩
  | .local _ .vmem, ⟨9, _⟩ => ⟨S2000x16, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_cst_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_11 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_12 : Ref sig .tc := ⟨.hbm, 82, rfl⟩
abbrev main_call2_v0 : Ref sig .tc := ⟨.hbm, 83, rfl⟩
abbrev main_call2_v1 : Ref sig .tc := ⟨.hbm, 84, rfl⟩
abbrev main_v58 : Ref sig .tc := ⟨.hbm, 85, rfl⟩
abbrev main_c_13 : Ref sig .tc := ⟨.hbm, 86, rfl⟩
abbrev main_v59 : Ref sig .tc := ⟨.hbm, 87, rfl⟩
abbrev main_v60 : Ref sig .tc := ⟨.hbm, 88, rfl⟩
abbrev main_c_14 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_c_15 : Ref sig .tc := ⟨.hbm, 95, rfl⟩
abbrev main_v66 : Ref sig .tc := ⟨.hbm, 96, rfl⟩
abbrev main_v67 : Ref sig .tc := ⟨.hbm, 97, rfl⟩
abbrev main_c_16 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_cst_20 : Ref sig .tc := ⟨.hbm, 125, rfl⟩
abbrev main_v91 : Ref sig .tc := ⟨.hbm, 126, rfl⟩
abbrev main_cst_21 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_cst_22 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  shapeCasts_S2000x256_S2000x256 : S2000x256.ShapeCasts S2000x256
  inb_S256x16_S256x16_0_0 : ∀ a, (![0, 0] : Fin 2 → Nat) a + S256x16.size a ≤ S256x16.size a
  h_S256x16 : 0 < S256x16.numel
  inb_S2000x16_S2000x16_0_0 : ∀ a, (![0, 0] : Fin 2 → Nat) a + S2000x16.size a ≤ S2000x16.size a
  h_S2000x16 : 0 < S2000x16.numel
  bcast_S850000x1_S850000x16_0_1 : S850000x1.BroadcastsInDim S850000x16 (![0, 1] : Fin 2 → Fin S850000x16.rank)
  bcast_S_S50000x16 : S_.BroadcastsInDim S50000x16 (![] : Fin 0 → Fin S50000x16.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  reducesTo_S50000x16_S50000_d1 : S50000x16.ReducesTo [1] S50000
  h_S_ : 0 < S_.numel
  bcast_S50000_S50000x1_0 : S50000.BroadcastsInDim S50000x1 (![0] : Fin 1 → Fin S50000x1.rank)
  bcast_S50000x1_S50000x16_0_1 : S50000x1.BroadcastsInDim S50000x16 (![0, 1] : Fin 2 → Fin S50000x16.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x256_S256x256_S2000x256_1_0_0_1_n_n_wf : DotDims.WF S2000x256 S256x256 S2000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S2000x256_S256x16_S2000x16_1_0_0_1_n_n_wf : DotDims.WF S2000x256 S256x16 S2000x16 [1] [0] [0] [1] [] []
  gather_S50000x16_S850000x1_S850000x16_1_0_n_n_0_1_116_wf : GatherDims.WF S50000x16 S850000x1 S850000x16 [1] [0] [] [0] [] 1 ![1, 16]
  scatter_S50000x16_S850000x1_S850000x16_1_0_0_1_wf : ScatterDims.WF S50000x16 S850000x1 S850000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x16.size a ≤ S256x16.size a
  hwx1_1 : ∀ i : grid1.Coords, EltTy.bits .f32 = 32 ∨ (Rect.block (s := S256x16) S256x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x16.size a ≤ S50000x16.size a
  hwx1_2 : ∀ i : grid1.Coords, EltTy.bits .f32 = 32 ∨ (Rect.block (s := S50000x16) S2000x16.size (cc1_transform_2 i) (hinb1_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S2000x256_S256x16_S2000x16_1_0_0_1_n_n : DotDims S2000x256 S256x16 S2000x16 where
  lhsContracting := [1]
  rhsContracting := [0]
  lhsNonContracting := [0]
  rhsNonContracting := [1]
  lhsBatch := []
  rhsBatch := []
  wf := dot_S2000x256_S256x16_S2000x16_1_0_0_1_n_n_wf
def gather_S50000x16_S850000x1_S850000x16_1_0_n_n_0_1_116 : GatherDims S50000x16 S850000x1 S850000x16 where
  offsetDims := [1]
  collapsedSliceDims := [0]
  operandBatchingDims := []
  startIndicesBatchingDims := []
  startIndexMap := [0]
  indexVectorDim := 1
  sliceSizes := ![1, 16]
  wf := gather_S50000x16_S850000x1_S850000x16_1_0_n_n_0_1_116_wf
def scatter_S50000x16_S850000x1_S850000x16_1_0_0_1 : ScatterDims S50000x16 S850000x1 S850000x16 where
  updateWindowDims := [1]
  insertedWindowDims := [0]
  scatterDimsToOperandDims := [0]
  indexVectorDim := 1
  wf := scatter_S50000x16_S850000x1_S850000x16_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S256x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v74) S2000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x16 : Shape := ⟨2, ![256, 16]⟩
abbrev S16 : Shape := ⟨1, ![16]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x256 : Shape := ⟨2, ![850000, 256]⟩
abbrev S1x256 : Shape := ⟨2, ![1, 256]⟩
abbrev S50000x16 : Shape := ⟨2, ![50000, 16]⟩
abbrev S850000x16 : Shape := ⟨2, ![850000, 16]⟩
abbrev S1x16 : Shape := ⟨2, ![1, 16]⟩
abbrev S50000x1 : Shape := ⟨2, ![50000, 1]⟩

abbrev nBuf : Space → Nat
  | .hbm => 139
  | .vmem => 0
  | .smem => 0
  | _ => 0

abbrev hbmTy0_0 (i : Nat) : BufTy := match i % 128 with
  | 0 => ⟨S50000x256, .f32⟩
  | 1 => ⟨S2x800000, .i32⟩
  | 2 => ⟨S256x256, .f32⟩
  | 3 => ⟨S256, .f32⟩
  | 4 => ⟨S256x16, .f32⟩
  | 5 => ⟨S16, .f32⟩
  | 6 => ⟨S1x800000, .i32⟩
  | 7 => ⟨S800000, .i32⟩
  | 8 => ⟨S1x800000, .i32⟩
  | 9 => ⟨S800000, .i32⟩
  | 10 => ⟨S50000, .i32⟩
  | 11 => ⟨S850000, .i32⟩
  | 12 => ⟨S850000, .i32⟩
  | 13 => ⟨S_, .f32⟩
  | 14 => ⟨S850000, .f32⟩
  | 15 => ⟨S_, .f32⟩
  | 16 => ⟨S50000, .f32⟩
  | 17 => ⟨S850000x1, .i32⟩
  | 18 => ⟨S50000, .f32⟩
  | 19 => ⟨S_, .f32⟩
  | 20 => ⟨S50000, .f32⟩
  | 21 => ⟨S50000, .i1⟩
  | 22 => ⟨S50000, .f32⟩
  | 23 => ⟨S_, .f32⟩
  | 24 => ⟨S_, .f32⟩
  | 25 => ⟨S50000, .f32⟩
  | 26 => ⟨S50000, .f32⟩
  | 27 => ⟨S_, .i32⟩
  | 28 => ⟨S850000, .i32⟩
  | 29 => ⟨S850000, .i1⟩
  | 30 => ⟨S_, .i32⟩
  | 31 => ⟨S850000, .i32⟩
  | 32 => ⟨S850000, .i32⟩
  | 33 => ⟨S850000, .i32⟩
  | 34 => ⟨S850000x1, .i32⟩
  | 35 => ⟨S850000, .f32⟩
  | 36 => ⟨S_, .i32⟩
  | 37 => ⟨S850000, .i32⟩
  | 38 => ⟨S850000, .i1⟩
  | 39 => ⟨S_, .i32⟩
  | 40 => ⟨S850000, .i32⟩
  | 41 => ⟨S850000, .i32⟩
  | 42 => ⟨S850000, .i32⟩
  | 43 => ⟨S850000x1, .i32⟩
  | 44 => ⟨S850000, .f32⟩
  | 45 => ⟨S850000, .f32⟩
  | 46 => ⟨S50000x256, .f32⟩
  | 47 => ⟨S_, .i32⟩
  | 48 => ⟨S850000, .i32⟩
  | 49 => ⟨S850000, .i1⟩
  | 50 => ⟨S_, .i32⟩
  | 51 => ⟨S850000, .i32⟩
  | 52 => ⟨S850000, .i32⟩
  | 53 => ⟨S850000, .i32⟩
  | 54 => ⟨S850000x1, .i32⟩
  | 55 => ⟨S850000x256, .f32⟩
  | 56 => ⟨S850000x1, .f32⟩
  | 57 => ⟨S850000x256, .f32⟩
  | 58 => ⟨S850000x256, .f32⟩
  | 59 => ⟨S_, .f32⟩
  | 60 => ⟨S50000x256, .f32⟩
  | 61 => ⟨S850000x1, .i32⟩
  | 62 => ⟨S50000x256, .f32⟩
  | 63 => ⟨S1x256, .f32⟩
  | 64 => ⟨S50000x256, .f32⟩
  | 65 => ⟨S50000x256, .f32⟩
  | 66 => ⟨S_, .f32⟩
  | 67 => ⟨S50000x256, .f32⟩
  | 68 => ⟨S50000x256, .f32⟩
  | 69 => ⟨S50000, .i32⟩
  | 70 => ⟨S850000, .i32⟩
  | 71 => ⟨S850000, .i32⟩
  | 72 => ⟨S_, .f32⟩
  | 73 => ⟨S850000, .f32⟩
  | 74 => ⟨S_, .f32⟩
  | 75 => ⟨S50000, .f32⟩
  | 76 => ⟨S850000x1, .i32⟩
  | 77 => ⟨S50000, .f32⟩
  | 78 => ⟨S_, .f32⟩
  | 79 => ⟨S50000, .f32⟩
  | 80 => ⟨S50000, .i1⟩
  | 81 => ⟨S50000, .f32⟩
  | 82 => ⟨S_, .f32⟩
  | 83 => ⟨S_, .f32⟩
  | 84 => ⟨S50000, .f32⟩
  | 85 => ⟨S50000, .f32⟩
  | 86 => ⟨S_, .i32⟩
  | 87 => ⟨S850000, .i32⟩
  | 88 => ⟨S850000, .i1⟩
  | 89 => ⟨S_, .i32⟩
  | 90 => ⟨S850000, .i32⟩
  | 91 => ⟨S850000, .i32⟩
  | 92 => ⟨S850000, .i32⟩
  | 93 => ⟨S850000x1, .i32⟩
  | 94 => ⟨S850000, .f32⟩
  | 95 => ⟨S_, .i32⟩
  | 96 => ⟨S850000, .i32⟩
  | 97 => ⟨S850000, .i1⟩
  | 98 => ⟨S_, .i32⟩
  | 99 => ⟨S850000, .i32⟩
  | 100 => ⟨S850000, .i32⟩
  | 101 => ⟨S850000, .i32⟩
  | 102 => ⟨S850000x1, .i32⟩
  | 103 => ⟨S850000, .f32⟩
  | 104 => ⟨S850000, .f32⟩
  | 105 => ⟨S50000x16, .f32⟩
  | 106 => ⟨S_, .i32⟩
  | 107 => ⟨S850000, .i32⟩
  | 108 => ⟨S850000, .i1⟩
  | 109 => ⟨S_, .i32⟩
  | 110 => ⟨S850000, .i32⟩
  | 111 => ⟨S850000, .i32⟩
  | 112 => ⟨S850000, .i32⟩
  | 113 => ⟨S850000x1, .i32⟩
  | 114 => ⟨S850000x16, .f32⟩
  | 115 => ⟨S850000x1, .f32⟩
  | 116 => ⟨S850000x16, .f32⟩
  | 117 => ⟨S850000x16, .f32⟩
  | 118 => ⟨S_, .f32⟩
  | 119 => ⟨S50000x16, .f32⟩
  | 120 => ⟨S850000x1, .i32⟩
  | 121 => ⟨S50000x16, .f32⟩
  | 122 => ⟨S1x16, .f32⟩
  | 123 => ⟨S50000x16, .f32⟩
  | 124 => ⟨S50000x16, .f32⟩
  | 125 => ⟨S_, .f32⟩
  | 126 => ⟨S50000, .f32⟩
  | 127 => ⟨S_, .f32⟩
  | _ => ⟨S50000x256, .f32⟩

abbrev hbmTy0_1 (i : Nat) : BufTy := match i % 128 with
  | 0 => ⟨S50000, .f32⟩
  | 1 => ⟨S50000, .f32⟩
  | 2 => ⟨S50000x1, .f32⟩
  | 3 => ⟨S50000x16, .f32⟩
  | 4 => ⟨S50000x16, .f32⟩
  | 5 => ⟨S50000x16, .f32⟩
  | 6 => ⟨S_, .f32⟩
  | 7 => ⟨S50000, .f32⟩
  | 8 => ⟨S50000x1, .f32⟩
  | 9 => ⟨S50000x16, .f32⟩
  | 10 => ⟨S50000x16, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_cst_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_11 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_12 : Ref sig .tc := ⟨.hbm, 82, rfl⟩
abbrev main_call2_v0 : Ref sig .tc := ⟨.hbm, 83, rfl⟩
abbrev main_call2_v1 : Ref sig .tc := ⟨.hbm, 84, rfl⟩
abbrev main_v58 : Ref sig .tc := ⟨.hbm, 85, rfl⟩
abbrev main_c_13 : Ref sig .tc := ⟨.hbm, 86, rfl⟩
abbrev main_v59 : Ref sig .tc := ⟨.hbm, 87, rfl⟩
abbrev main_v60 : Ref sig .tc := ⟨.hbm, 88, rfl⟩
abbrev main_c_14 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_c_15 : Ref sig .tc := ⟨.hbm, 95, rfl⟩
abbrev main_v66 : Ref sig .tc := ⟨.hbm, 96, rfl⟩
abbrev main_v67 : Ref sig .tc := ⟨.hbm, 97, rfl⟩
abbrev main_c_16 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_cst_20 : Ref sig .tc := ⟨.hbm, 125, rfl⟩
abbrev main_v91 : Ref sig .tc := ⟨.hbm, 126, rfl⟩
abbrev main_cst_21 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_cst_22 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S850000x1_S850000x16_0_1 : S850000x1.BroadcastsInDim S850000x16 (![0, 1] : Fin 2 → Fin S850000x16.rank)
  bcast_S_S50000x16 : S_.BroadcastsInDim S50000x16 (![] : Fin 0 → Fin S50000x16.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  reducesTo_S50000x16_S50000_d1 : S50000x16.ReducesTo [1] S50000
  h_S_ : 0 < S_.numel
  bcast_S50000_S50000x1_0 : S50000.BroadcastsInDim S50000x1 (![0] : Fin 1 → Fin S50000x1.rank)
  bcast_S50000x1_S50000x16_0_1 : S50000x1.BroadcastsInDim S50000x16 (![0, 1] : Fin 2 → Fin S50000x16.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x256_S256x256_S50000x256_1_0_0_1_n_n_wf : DotDims.WF S50000x256 S256x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x16_S50000x16_1_0_0_1_n_n_wf : DotDims.WF S50000x256 S256x16 S50000x16 [1] [0] [0] [1] [] []
  gather_S50000x16_S850000x1_S850000x16_1_0_n_n_0_1_116_wf : GatherDims.WF S50000x16 S850000x1 S850000x16 [1] [0] [] [0] [] 1 ![1, 16]
  scatter_S50000x16_S850000x1_S850000x16_1_0_0_1_wf : ScatterDims.WF S50000x16 S850000x1 S850000x16 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x16_S50000x16_1_0_0_1_n_n : DotDims S50000x256 S256x16 S50000x16 where
  lhsContracting := [1]
  rhsContracting := [0]
  lhsNonContracting := [0]
  rhsNonContracting := [1]
  lhsBatch := []
  rhsBatch := []
  wf := dot_S50000x256_S256x16_S50000x16_1_0_0_1_n_n_wf
def gather_S50000x16_S850000x1_S850000x16_1_0_n_n_0_1_116 : GatherDims S50000x16 S850000x1 S850000x16 where
  offsetDims := [1]
  collapsedSliceDims := [0]
  operandBatchingDims := []
  startIndicesBatchingDims := []
  startIndexMap := [0]
  indexVectorDim := 1
  sliceSizes := ![1, 16]
  wf := gather_S50000x16_S850000x1_S850000x16_1_0_n_n_0_1_116_wf
def scatter_S50000x16_S850000x1_S850000x16_1_0_0_1 : ScatterDims S50000x16 S850000x1 S850000x16 where
  updateWindowDims := [1]
  insertedWindowDims := [0]
  scatterDimsToOperandDims := [0]
  indexVectorDim := 1
  wf := scatter_S50000x16_S850000x1_S850000x16_1_0_0_1_wf

class Facts : Prop extends Facts₀ where

variable [Facts]
-- ==== Proof.KernelRun.lean ====
/-
  The idealized kernel's run, with its RESULT named. The program is eleven segments — three stretches of host
  operations, the first dense product as a pipelined region, five stretches, the second dense product as a region, and a
  last stretch — and its frame certificate folds the TensorCore's buffer contents through them: `Gen.W11 m ρ c` is what
  core `c`'s buffers hold after the last stretch. Every weakly fair execution terminates holding every unshared
  buffer at those contents; read at the result buffer `main_v101` and at the six argument arrays this says: the result
  is `Gen.W11 m ρ c` of its buffer, and the arguments are as launched.
-/
import proofs.«163876_j2061584302171_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the idealized kernel's @main terminates, nothing faulting, with the result buffer
    at the last boundary's contents `Gen.W11` and every argument array as launched. -/
theorem run : θ_run defs (onTc (τ := τ) (main (F := F))) ⟨m, fun _ => 0, ρ⟩ (fun r => ∀ c : Dev nD,
      r.2.mem ((c.tc : Thread nD τ).loc main_v101) = W11 m ρ c (Proc.devRef .tc main_v101)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v101 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c)⟩)

end Cert.KernelIdeal.RunValue

end
-- ==== Proof.GlueRefArgs.lean ====
/-
  No operation of the reference writes an argument array: read after all its operations, each of the six argument
  buffers holds what it held at the start.
-/
import proofs.«163876_j2061584302171_1_alg».proof.Proof.RefRun

set_option maxRecDepth 16384

noncomputable section

namespace Cert.Glue

open Idealize.ShloMosaic Idealize.ShloMosaic.TcCoe Idealize.SL.Sem Idealize.ShloMosaic.StableHlo

variable {F : FTy → Type} [FloatOps F]

set_option maxHeartbeats 4000000 in
/-- The reference's operations leave `main_arg0` as they found it. -/
theorem ref_main_arg0 (VR : Valuation Cert.ReferenceIdeal.τ Cert.ReferenceIdeal.sig (Elt F)) :
    StableHlo.after (Cert.ReferenceIdeal.ValueP.ops (F := F)) VR (Proc.devRef .tc Cert.ReferenceIdeal.main_arg0) = VR (Proc.devRef .tc Cert.ReferenceIdeal.main_arg0) := by
  after_results_simp

set_option maxHeartbeats 4000000 in
/-- The reference's operations leave `main_arg1` as they found it. -/
theorem ref_main_arg1 (VR : Valuation Cert.ReferenceIdeal.τ Cert.ReferenceIdeal.sig (Elt F)) :
    StableHlo.after (Cert.ReferenceIdeal.ValueP.ops (F := F)) VR (Proc.devRef .tc Cert.ReferenceIdeal.main_arg1) = VR (Proc.devRef .tc Cert.ReferenceIdeal.main_arg1) := by
  after_results_simp

set_option maxHeartbeats 4000000 in
/-- The reference's operations leave `main_arg2` as they found it. -/
theorem ref_main_arg2 (VR : Valuation Cert.ReferenceIdeal.τ Cert.ReferenceIdeal.sig (Elt F)) :
    StableHlo.after (Cert.ReferenceIdeal.ValueP.ops (F := F)) VR (Proc.devRef .tc Cert.ReferenceIdeal.main_arg2) = VR (Proc.devRef .tc Cert.ReferenceIdeal.main_arg2) := by
  after_results_simp

set_option maxHeartbeats 4000000 in
/-- The reference's operations leave `main_arg3` as they found it. -/
theorem ref_main_arg3 (VR : Valuation Cert.ReferenceIdeal.τ Cert.ReferenceIdeal.sig (Elt F)) :
    StableHlo.after (Cert.ReferenceIdeal.ValueP.ops (F := F)) VR (Proc.devRef .tc Cert.ReferenceIdeal.main_arg3) = VR (Proc.devRef .tc Cert.ReferenceIdeal.main_arg3) := by
  after_results_simp

set_option maxHeartbeats 4000000 in
/-- The reference's operations leave `main_arg4` as they found it. -/
theorem ref_main_arg4 (VR : Valuation Cert.ReferenceIdeal.τ Cert.ReferenceIdeal.sig (Elt F)) :
    StableHlo.after (Cert.ReferenceIdeal.ValueP.ops (F := F)) VR (Proc.devRef .tc Cert.ReferenceIdeal.main_arg4) = VR (Proc.devRef .tc Cert.ReferenceIdeal.main_arg4) := by
  after_results_simp

set_option maxHeartbeats 4000000 in
/-- The reference's operations leave `main_arg5` as they found it. -/
theorem ref_main_arg5 (VR : Valuation Cert.ReferenceIdeal.τ Cert.ReferenceIdeal.sig (Elt F)) :
    StableHlo.after (Cert.ReferenceIdeal.ValueP.ops (F := F)) VR (Proc.devRef .tc Cert.ReferenceIdeal.main_arg5) = VR (Proc.devRef .tc Cert.ReferenceIdeal.main_arg5) := by
  after_results_simp

end Cert.Glue

end
-- ==== Proof.DenseSpec.lean ====
/-
  The two dense products of the graph convolution, as whole-array functions.

  A product of an array of 50000 rows of 256 features with a weight matrix of 256 rows: entry (r, q) of the result
  is the sum over the 256 features n of x (r, n) * w (n, q), on the extended reals. Row r of the result depends on
  row r of the left operand only, and on the whole weight matrix: this is what lets the product be computed a block
  of rows at a time.
-/
import Idealize.ShloMosaic.PureOps.Ideal
import Idealize.ShloMosaic.Lib.ValueIdx

noncomputable section

open scoped BigOperators

namespace Cert.Dense

open Idealize.ShloMosaic Idealize.ShloMosaic.ValueIdx

/-- The first layer's product: 50000 rows of 256 features times a 256 by 256 weight matrix. -/
def prod256 (x : Vec Ideal ⟨2, ![50000, 256]⟩ .f32) (w : Vec Ideal ⟨2, ![256, 256]⟩ .f32) :
    Vec Ideal ⟨2, ![50000, 256]⟩ .f32 :=
  fun i => ∑ n : Fin 256, x (ix2 (i 0) n) * w (ix2 n (i 1))

/-- The second layer's product: 50000 rows of 256 features times a 256 by 16 weight matrix. -/
def prod16 (x : Vec Ideal ⟨2, ![50000, 256]⟩ .f32) (w : Vec Ideal ⟨2, ![256, 16]⟩ .f32) :
    Vec Ideal ⟨2, ![50000, 16]⟩ .f32 :=
  fun i => ∑ n : Fin 256, x (ix2 (i 0) n) * w (ix2 n (i 1))

/-- The first product at the entry of row `r` and column `q`. -/
theorem prod256_apply (x : Vec Ideal ⟨2, ![50000, 256]⟩ .f32) (w : Vec Ideal ⟨2, ![256, 256]⟩ .f32)
    (r : Fin 50000) (q : Fin 256) :
    prod256 x w (ix2 r q) = ∑ n : Fin 256, x (ix2 r n) * w (ix2 n q) := rfl

/-- The second product at the entry of row `r` and column `q`. -/
theorem prod16_apply (x : Vec Ideal ⟨2, ![50000, 256]⟩ .f32) (w : Vec Ideal ⟨2, ![256, 16]⟩ .f32)
    (r : Fin 50000) (q : Fin 16) :
    prod16 x w (ix2 r q) = ∑ n : Fin 256, x (ix2 r n) * w (ix2 n q) := rfl

end Cert.Dense

end
-- ==== Proof.LibDenseBlock.lean ====
/-
  A weight matrix times a block, read at an index.

  A `tpu.matmul` of a `[K, N]` left operand with an `[N, Q]` right operand, contracting the left's second axis with the
  right's first, into a zero accumulator: over the extended reals entry `(k, q)` of the result is the plain sum
  `Σ n, l (k, n) * r (n, q)`.
-/
import Idealize.ShloMosaic.Lib.ValueIdx
import Idealize.ShloMosaic.PureOps.Ideal.Laws

noncomputable section

namespace Idealize.ShloMosaic.DenseBlock

open Idealize.ShloMosaic Idealize.ShloMosaic.ValueIdx

/-- The dimension numbers of `[K, N] · [N, Q] → [K, Q]`. -/
abbrev mmDims (K N Q : Nat)
    (wf : DotDims.WF ⟨2, ![K, N]⟩ ⟨2, ![N, Q]⟩ ⟨2, ![K, Q]⟩ [1] [0] [0] [1] [] []) :
    DotDims ⟨2, ![K, N]⟩ ⟨2, ![N, Q]⟩ ⟨2, ![K, Q]⟩ where
  lhsContracting := [1]
  rhsContracting := [0]
  lhsNonContracting := [0]
  rhsNonContracting := [1]
  lhsBatch := []
  rhsBatch := []
  wf := wf

section
variable {K N Q : Nat} (wf : DotDims.WF ⟨2, ![K, N]⟩ ⟨2, ![N, Q]⟩ ⟨2, ![K, Q]⟩ [1] [0] [0] [1] [] [])

/-- The left operand's row is the result's row. -/
theorem lhs_row (j : (⟨2, ![K, Q]⟩ : Shape).Idx) (c : (mmDims K N Q wf).contr.Idx) :
    ((mmDims K N Q wf).lhsIdx j c (0 : Fin 2)).val = (j 0).val := by
  unfold DotDims.lhsIdx
  rw [dif_neg (show ¬ (0 : Fin 2) ∈ (mmDims K N Q wf).lhsBatch from List.not_mem_nil),
    dif_pos (show (0 : Fin 2) ∈ (mmDims K N Q wf).lhsNonContracting from List.mem_singleton.mpr rfl)]
  rfl

/-- The left operand's column is the contraction position. -/
theorem lhs_col (j : (⟨2, ![K, Q]⟩ : Shape).Idx) (c : (mmDims K N Q wf).contr.Idx) :
    ((mmDims K N Q wf).lhsIdx j c (1 : Fin 2)).val = (c ⟨0, Nat.one_pos⟩).val :=
  (mmDims K N Q wf).lhsIdx_val_of_single rfl j c

/-- The right operand's row is the contraction position. -/
theorem rhs_row (j : (⟨2, ![K, Q]⟩ : Shape).Idx) (c : (mmDims K N Q wf).contr.Idx) :
    ((mmDims K N Q wf).rhsIdx j c (0 : Fin 2)).val = (c ⟨0, Nat.one_pos⟩).val :=
  (mmDims K N Q wf).rhsIdx_val_of_single rfl j c

/-- The right operand's column is the result's column. -/
theorem rhs_col (j : (⟨2, ![K, Q]⟩ : Shape).Idx) (c : (mmDims K N Q wf).contr.Idx) :
    ((mmDims K N Q wf).rhsIdx j c (1 : Fin 2)).val = (j 1).val := by
  unfold DotDims.rhsIdx
  rw [dif_neg (show ¬ (1 : Fin 2) ∈ (mmDims K N Q wf).rhsBatch from List.not_mem_nil),
    dif_pos (show (1 : Fin 2) ∈ (mmDims K N Q wf).rhsNonContracting from List.mem_singleton.mpr rfl)]
  rfl

/-- Entry `(k, q)` of the product into a zero accumulator is `Σ n, l (k, n) * r (n, q)`. -/
theorem matmul_zero_apply {φ₁ φ₂ : FTy} (l : FVec Ideal ⟨2, ![K, N]⟩ φ₁) (r : FVec Ideal ⟨2, ![N, Q]⟩ φ₂)
    (k : Fin K) (q : Fin Q) :
    FloatOps.matmul (mmDims K N Q wf) none l r (constant ⟨2, ![K, Q]⟩ .f32 0x00000000#32) (ix2 k q)
      = ∑ n : Fin N, l (ix2 k n) * r (ix2 n q) := by
  rw [Ideal.matmul_constant_zero_apply, ← Equiv.sum_comp (contrEquiv1 (mmDims K N Q wf) N rfl rfl).symm]
  refine Finset.sum_congr rfl fun n _ => ?_
  have hn := contrEquiv1_symm_val (mmDims K N Q wf) N rfl rfl n
  have el : (mmDims K N Q wf).lhsIdx (ix2 k q) ((contrEquiv1 (mmDims K N Q wf) N rfl rfl).symm n) = ix2 k n :=
    funext fun a => Fin.ext (by
      match a with
      | ⟨0, _⟩ => exact lhs_row wf _ _
      | ⟨1, _⟩ => exact (lhs_col wf _ _).trans hn)
  have er : (mmDims K N Q wf).rhsIdx (ix2 k q) ((contrEquiv1 (mmDims K N Q wf) N rfl rfl).symm n) = ix2 n q :=
    funext fun a => Fin.ext (by
      match a with
      | ⟨0, _⟩ => exact (rhs_row wf _ _).trans hn
      | ⟨1, _⟩ => exact rhs_col wf _ _)
  rw [el, er]

end

end Idealize.ShloMosaic.DenseBlock

end
-- ==== Proof.RegionValue.lean ====
/-
  What each of the two row-blocked products leaves in its output array.

  Each region runs its body at 25 grid points. At point t the body is handed rows 2000 t … 2000 t + 1999 of the left
  array (all 256 feature columns) and the whole weight matrix, multiplies the two into a zero accumulator, and the
  2000 result rows are written back to rows 2000 t … 2000 t + 1999 of the output array. Entry (k, q) of a block's
  result is the sum over the 256 features n of block (k, n) * weights (n, q), and block row k is array row
  2000 t + k: so the block written at point t is rows 2000 t … of the whole-array product. Row r is written by
  point r / 2000, so the 25 blocks cover the 50000 rows and the output array ends holding the whole product.
-/
import proofs.«163876_j2061584302171_1_alg».proof.Proof.Gen.KernelIdeal.Frame
import proofs.«163876_j2061584302171_1_alg».proof.Proof.DenseSpec
import proofs.«163876_j2061584302171_1_alg».proof.Proof.LibDenseBlock
import Idealize.ShloMosaic.Lib.Pipeline.Value

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx Idealize.ShloMosaic.DenseBlock

/-- The zero offsets of a whole-buffer load or store, spelt as a constant function. -/
theorem hz : (![0, 0] : Fin 2 → Nat) = fun _ => 0 := funext fun a => by fin_cases a <;> rfl

/-! ## Region 0: 2000 by 256 row blocks against the 256 by 256 weights -/

/-- Entry (k, q) of what the body stores: row k of the loaded block against column q of the loaded weights. The
    two narrowings to bf16 change nothing on the extended reals, and the accumulator starts at zero. -/
theorem pay0_apply (x0 : Vec Ideal S2000x256 .f32) (x1 : Vec Ideal S256x256 .f32) (k : Fin 2000) (q : Fin 256) :
    k0_pay1 (F := Ideal) x0 x1 (ix2 k q) = ∑ n : Fin 256, x0 (ix2 k n) * x1 (ix2 n q) := by
  unfold k0_pay1
  exact matmul_zero_apply (K := 2000) (N := 256) (Q := 256) Facts₀.dot_S2000x256_S256x256_S2000x256_1_0_0_1_n_n_wf
    (φ₁ := .bf16) (φ₂ := .bf16) (truncf .bf16 x0 bitsLt_bf16_f32) (truncf .bf16 x1 bitsLt_bf16_f32) k q

/-- A block that holds rows 2000 b … 2000 b + 1999 of `X`, multiplied by a copy of the weights `W`, gives those rows
    of the whole product: entry (k, q) of the block's result is entry (2000 b + k, q) of `X` times `W`. -/
theorem block0_value (X : Vec Ideal S50000x256 .f32) (W : Vec Ideal S256x256 .f32)
    (x0 : Vec Ideal S2000x256 .f32) (x1 : Vec Ideal S256x256 .f32) (b : Nat)
    (h0 : ∀ (y : S2000x256.Idx) (i : S50000x256.Idx), (i 0).val = b * 2000 + (y 0).val → (i 1).val = (y 1).val → x0 y = X i)
    (h1 : ∀ y : S256x256.Idx, x1 y = W y)
    (j : S2000x256.Idx) (i : S50000x256.Idx) (hi0 : (i 0).val = b * 2000 + (j 0).val) (hi1 : (i 1).val = (j 1).val) :
    k0_pay1 (F := Ideal) x0 x1 j = Cert.Dense.prod256 X W i := by
  obtain ⟨k, q, rfl⟩ : ∃ (k : Fin 2000) (q : Fin 256), j = ix2 k q := ⟨j 0, j 1, eq_ix2 j⟩
  obtain ⟨r, q', rfl⟩ : ∃ (r : Fin 50000) (q' : Fin 256), i = ix2 r q' := ⟨i 0, i 1, eq_ix2 i⟩
  obtain rfl : q' = q := Fin.ext hi1
  rw [pay0_apply, Cert.Dense.prod256_apply]
  exact Finset.sum_congr rfl fun n _ => by rw [h0 (ix2 k n) (ix2 r n) hi0 rfl, h1 (ix2 n q')]

/-- The printed index maps over the 25 points: the left window and the output window sit at row block t, column
    block 0; the weight window stays at block (0, 0). -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

section
variable (V : (c : Dev nD) → (b : Ref sig .tc) → Buf (Elt Ideal) ((c : Thread nD τ).loc b))

/-- What point t writes back is block t of the whole product of the two arrays as the region found them. -/
theorem flushed0_eq (c : Dev nD) (t : Fin cfg0.N) :
    (dat0 (F := Ideal) V c).flushed 2 t
      = ((cfg0.win 2).blk t).view.read (Elt Ideal) (Cert.Dense.prod256 (V c main_arg0) (V c main_arg2)) := by
  show (cfg0.win 2).cut (grid0.coords t) ((dat0 V c).after 2 t) = _
  rw [after0_2]
  unfold out0_2
  rw [View.canon_unit_zero hz]
  simp only [View.ld_unit_zero (S := S2000x256) hz, View.ld_unit_zero (S := S256x256) hz]
  obtain ⟨e00, e01, e10, e11, e20, e21⟩ := idx0 t
  funext j
  show k0_pay1 (iblk0 V c 0 t) (iblk0 V c 1 t) j
    = Cert.Dense.prod256 (V c main_arg0) (V c main_arg2) (((cfg0.win 2).blk t).view.emb j)
  refine block0_value (V c main_arg0) (V c main_arg2) (iblk0 V c 0 t) (iblk0 V c 1 t) (win0_2.index t (0 : Fin 2))
    ?_ ?_ j (((cfg0.win 2).blk t).view.emb j) ?_ ?_
  · -- the left window's block: array row = block index * 2000 + row inside the block
    intro y i h0 h1
    show V c main_arg0 (((cfg0.win 0).blk t).view.emb y) = V c main_arg0 i
    refine congrArg (V c main_arg0) (funext fun a => Fin.ext ?_)
    match a with
    | ⟨0, _⟩ => show win0_0.index t (0 : Fin 2) * 2000 + 1 * (y 0).val = (i 0).val; omega
    | ⟨1, _⟩ => show win0_0.index t (1 : Fin 2) * 256 + 1 * (y 1).val = (i 1).val; omega
  · -- the weight window's block is the whole weight matrix
    intro y
    show V c main_arg2 (((cfg0.win 1).blk t).view.emb y) = V c main_arg2 y
    refine congrArg (V c main_arg2) (funext fun a => Fin.ext ?_)
    match a with
    | ⟨0, _⟩ => show win0_1.index t (0 : Fin 2) * 256 + 1 * (y 0).val = (y 0).val; omega
    | ⟨1, _⟩ => show win0_1.index t (1 : Fin 2) * 256 + 1 * (y 1).val = (y 1).val; omega
  · show win0_2.index t (0 : Fin 2) * 2000 + 1 * (j 0).val = win0_2.index t (0 : Fin 2) * 2000 + (j 0).val; omega
  · show win0_2.index t (1 : Fin 2) * 256 + 1 * (j 1).val = (j 1).val; omega

/-- An index of the output array is in point t's block exactly when each coordinate is in the block's range. -/
theorem mem_blk0 (t : Fin cfg0.N) (i : S50000x256.Idx) :
    i ∈ ((cfg0.win 2).blk t).view.set ↔ ∀ a : Fin 2, win0_2.index t a * S2000x256.size a ≤ (i a).val
      ∧ (i a).val < win0_2.index t a * S2000x256.size a + S2000x256.size a := by
  show i ∈ ((View.whole main_v30).slice (win0_2.rect t)).set ↔ _
  rw [View.set_slice_whole, Rect.mem_set_unit]
  exact Iff.rfl

/-- Every row of the output is written: row r lies in the block of point r / 2000, and every point writes back. -/
theorem cover0 (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  obtain ⟨t, ht⟩ : ∃ t : Fin cfg0.N, t.val = (i 0).val / 2000 :=
    ⟨⟨(i 0).val / 2000, by show (i 0).val / 2000 < grid0.N; rw [N_0]; omega⟩, rfl⟩
  obtain ⟨-, -, -, -, e20, e21⟩ := idx0 t
  refine ⟨t, flush0_2 t, ?_⟩
  rw [mem_blk0]
  intro a
  match a with
  | ⟨0, _⟩ =>
    show win0_2.index t (0 : Fin 2) * 2000 ≤ (i 0).val ∧ (i 0).val < win0_2.index t (0 : Fin 2) * 2000 + 2000
    omega
  | ⟨1, _⟩ =>
    show win0_2.index t (1 : Fin 2) * 256 ≤ (i 1).val ∧ (i 1).val < win0_2.index t (1 : Fin 2) * 256 + 256
    omega

/-- After the 25 points the first region's output array is the product of its two input arrays as the region
    found them. -/
theorem array0 (c : Dev nD) :
    (dat0 (F := Ideal) V c).arrAt 2 cfg0.N = Cert.Dense.prod256 (V c main_arg0) (V c main_arg2) :=
  (dat0 (F := Ideal) V c).arrAt_eq_of_cover 2 (Cert.Dense.prod256 (V c main_arg0) (V c main_arg2))
    (fun t _ => flushed0_eq V c t) cover0

end

/-! ## Region 1: 2000 by 256 row blocks against the 256 by 16 weights -/

/-- Entry (k, q) of what the second body stores: row k of the loaded block against column q of the loaded weights.
    The cast of the block to its own shape is the identity, the narrowings to bf16 change nothing on the extended
    reals, and the accumulator starts at zero. -/
theorem pay1_apply (x0 : Vec Ideal S2000x256 .f32) (x1 : Vec Ideal S256x16 .f32) (k : Fin 2000) (q : Fin 16) :
    k1_pay1 (F := Ideal) x0 x1 (ix2 k q) = ∑ n : Fin 256, x0 (ix2 k n) * x1 (ix2 n q) := by
  unfold k1_pay1
  simp only [shapeCast_self]
  exact matmul_zero_apply (K := 2000) (N := 256) (Q := 16) Facts₀.dot_S2000x256_S256x16_S2000x16_1_0_0_1_n_n_wf
    (φ₁ := .bf16) (φ₂ := .bf16) (truncf .bf16 x0 bitsLt_bf16_f32) (truncf .bf16 x1 bitsLt_bf16_f32) k q

/-- A block that holds rows 2000 b … 2000 b + 1999 of `X`, multiplied by a copy of the weights `W`, gives those rows
    of the whole product: entry (k, q) of the block's result is entry (2000 b + k, q) of `X` times `W`. -/
theorem block1_value (X : Vec Ideal S50000x256 .f32) (W : Vec Ideal S256x16 .f32)
    (x0 : Vec Ideal S2000x256 .f32) (x1 : Vec Ideal S256x16 .f32) (b : Nat)
    (h0 : ∀ (y : S2000x256.Idx) (i : S50000x256.Idx), (i 0).val = b * 2000 + (y 0).val → (i 1).val = (y 1).val → x0 y = X i)
    (h1 : ∀ y : S256x16.Idx, x1 y = W y)
    (j : S2000x16.Idx) (i : S50000x16.Idx) (hi0 : (i 0).val = b * 2000 + (j 0).val) (hi1 : (i 1).val = (j 1).val) :
    k1_pay1 (F := Ideal) x0 x1 j = Cert.Dense.prod16 X W i := by
  obtain ⟨k, q, rfl⟩ : ∃ (k : Fin 2000) (q : Fin 16), j = ix2 k q := ⟨j 0, j 1, eq_ix2 j⟩
  obtain ⟨r, q', rfl⟩ : ∃ (r : Fin 50000) (q' : Fin 16), i = ix2 r q' := ⟨i 0, i 1, eq_ix2 i⟩
  obtain rfl : q' = q := Fin.ext hi1
  rw [pay1_apply, Cert.Dense.prod16_apply]
  exact Finset.sum_congr rfl fun n _ => by rw [h0 (ix2 k n) (ix2 r n) hi0 rfl, h1 (ix2 n q')]

/-- The printed index maps over the 25 points: the left window and the output window sit at row block t, column
    block 0; the weight window stays at block (0, 0). -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

section
variable (V : (c : Dev nD) → (b : Ref sig .tc) → Buf (Elt Ideal) ((c : Thread nD τ).loc b))

/-- What point t writes back is block t of the whole product of the two arrays as the region found them. -/
theorem flushed1_eq (c : Dev nD) (t : Fin cfg1.N) :
    (dat1 (F := Ideal) V c).flushed 2 t
      = ((cfg1.win 2).blk t).view.read (Elt Ideal) (Cert.Dense.prod16 (V c main_v47) (V c main_arg4)) := by
  show (cfg1.win 2).cut (grid1.coords t) ((dat1 V c).after 2 t) = _
  rw [after1_2]
  unfold out1_2
  rw [View.canon_unit_zero hz]
  simp only [View.ld_unit_zero (S := S2000x256) hz, View.ld_unit_zero (S := S256x16) hz]
  obtain ⟨e00, e01, e10, e11, e20, e21⟩ := idx1 t
  funext j
  show k1_pay1 (iblk1 V c 0 t) (iblk1 V c 1 t) j
    = Cert.Dense.prod16 (V c main_v47) (V c main_arg4) (((cfg1.win 2).blk t).view.emb j)
  refine block1_value (V c main_v47) (V c main_arg4) (iblk1 V c 0 t) (iblk1 V c 1 t) (win1_2.index t (0 : Fin 2))
    ?_ ?_ j (((cfg1.win 2).blk t).view.emb j) ?_ ?_
  · -- the left window's block: array row = block index * 2000 + row inside the block
    intro y i h0 h1
    show V c main_v47 (((cfg1.win 0).blk t).view.emb y) = V c main_v47 i
    refine congrArg (V c main_v47) (funext fun a => Fin.ext ?_)
    match a with
    | ⟨0, _⟩ => show win1_0.index t (0 : Fin 2) * 2000 + 1 * (y 0).val = (i 0).val; omega
    | ⟨1, _⟩ => show win1_0.index t (1 : Fin 2) * 256 + 1 * (y 1).val = (i 1).val; omega
  · -- the weight window's block is the whole weight matrix
    intro y
    show V c main_arg4 (((cfg1.win 1).blk t).view.emb y) = V c main_arg4 y
    refine congrArg (V c main_arg4) (funext fun a => Fin.ext ?_)
    match a with
    | ⟨0, _⟩ => show win1_1.index t (0 : Fin 2) * 256 + 1 * (y 0).val = (y 0).val; omega
    | ⟨1, _⟩ => show win1_1.index t (1 : Fin 2) * 16 + 1 * (y 1).val = (y 1).val; omega
  · show win1_2.index t (0 : Fin 2) * 2000 + 1 * (j 0).val = win1_2.index t (0 : Fin 2) * 2000 + (j 0).val; omega
  · show win1_2.index t (1 : Fin 2) * 16 + 1 * (j 1).val = (j 1).val; omega

/-- An index of the output array is in point t's block exactly when each coordinate is in the block's range. -/
theorem mem_blk1 (t : Fin cfg1.N) (i : S50000x16.Idx) :
    i ∈ ((cfg1.win 2).blk t).view.set ↔ ∀ a : Fin 2, win1_2.index t a * S2000x16.size a ≤ (i a).val
      ∧ (i a).val < win1_2.index t a * S2000x16.size a + S2000x16.size a := by
  show i ∈ ((View.whole main_v74).slice (win1_2.rect t)).set ↔ _
  rw [View.set_slice_whole, Rect.mem_set_unit]
  exact Iff.rfl

/-- Every row of the output is written: row r lies in the block of point r / 2000, and every point writes back. -/
theorem cover1 (i : S50000x16.Idx) :
    ∃ t : Fin cfg1.N, (cfg1.win 2).flush t = true ∧ i ∈ ((cfg1.win 2).blk t).view.set := by
  have hi0 : (i 0).val < 50000 := (i 0).isLt
  have hi1 : (i 1).val < 16 := (i 1).isLt
  obtain ⟨t, ht⟩ : ∃ t : Fin cfg1.N, t.val = (i 0).val / 2000 :=
    ⟨⟨(i 0).val / 2000, by show (i 0).val / 2000 < grid1.N; rw [N_1]; omega⟩, rfl⟩
  obtain ⟨-, -, -, -, e20, e21⟩ := idx1 t
  refine ⟨t, flush1_2 t, ?_⟩
  rw [mem_blk1]
  intro a
  match a with
  | ⟨0, _⟩ =>
    show win1_2.index t (0 : Fin 2) * 2000 ≤ (i 0).val ∧ (i 0).val < win1_2.index t (0 : Fin 2) * 2000 + 2000
    omega
  | ⟨1, _⟩ =>
    show win1_2.index t (1 : Fin 2) * 16 ≤ (i 1).val ∧ (i 1).val < win1_2.index t (1 : Fin 2) * 16 + 16
    omega

/-- After the 25 points the second region's output array is the product of its two input arrays as the region
    found them. -/
theorem array1 (c : Dev nD) :
    (dat1 (F := Ideal) V c).arrAt 2 cfg1.N = Cert.Dense.prod16 (V c main_v47) (V c main_arg4) :=
  (dat1 (F := Ideal) V c).arrAt_eq_of_cover 2 (Cert.Dense.prod16 (V c main_v47) (V c main_arg4))
    (fun t _ => flushed1_eq V c t) cover1

end

end Cert.KernelIdeal.RegionValue

end
-- ==== Proof.LibDenseHost.lean ====
/-
  The host's matrix product, read at an index.

  A `dot_general` of a `[K, N]` left operand with an `[N, Q]` right operand, contracting the left's second axis with
  the right's first: over the extended reals entry `(k, q)` of the result is the plain sum `Σ n, l (k, n) * r (n, q)`,
  whatever the schedule — the same sum a matrix unit accumulates into zero, so a product computed block of rows by
  block of rows and a product computed whole agree entry by entry.
-/
import proofs.«163876_j2061584302171_1_alg».proof.Proof.LibDenseBlock

noncomputable section

namespace Idealize.ShloMosaic.DenseBlock

open Idealize.ShloMosaic Idealize.ShloMosaic.ValueIdx

variable {K N Q : Nat} (wf : DotDims.WF ⟨2, ![K, N]⟩ ⟨2, ![N, Q]⟩ ⟨2, ![K, Q]⟩ [1] [0] [0] [1] [] [])

/-- Entry `(k, q)` of the host's product is `Σ n, l (k, n) * r (n, q)`. -/
theorem dotGeneral_apply_ix2 {φ₁ φ₂ : FTy} (sched : HostSchedule) (l : FVec Ideal ⟨2, ![K, N]⟩ φ₁)
    (r : FVec Ideal ⟨2, ![N, Q]⟩ φ₂) (k : Fin K) (q : Fin Q) :
    FloatOps.dotGeneral (mmDims K N Q wf) none sched l r (ix2 k q) = ∑ n : Fin N, l (ix2 k n) * r (ix2 n q) := by
  rw [Ideal.dotGeneral_apply, ← Equiv.sum_comp (contrEquiv1 (mmDims K N Q wf) N rfl rfl).symm]
  refine Finset.sum_congr rfl fun n _ => ?_
  have hn := contrEquiv1_symm_val (mmDims K N Q wf) N rfl rfl n
  have el : (mmDims K N Q wf).lhsIdx (ix2 k q) ((contrEquiv1 (mmDims K N Q wf) N rfl rfl).symm n) = ix2 k n :=
    funext fun a => Fin.ext (by
      match a with
      | ⟨0, _⟩ => exact lhs_row wf _ _
      | ⟨1, _⟩ => exact (lhs_col wf _ _).trans hn)
  have er : (mmDims K N Q wf).rhsIdx (ix2 k q) ((contrEquiv1 (mmDims K N Q wf) N rfl rfl).symm n) = ix2 n q :=
    funext fun a => Fin.ext (by
      match a with
      | ⟨0, _⟩ => exact (rhs_row wf _ _).trans hn
      | ⟨1, _⟩ => exact rhs_col wf _ _)
  rw [el, er]

end Idealize.ShloMosaic.DenseBlock

end
-- ==== Proof.HostDense.lean ====
/-
  The reference's two dense products are the whole-array products of the specification.

  The reference computes each layer's product with one host `dot_general` over the full 50000 rows, contracting the
  left operand's feature axis with the weight matrix's row axis. On the extended reals entry (r, q) of that operation
  is the sum over the 256 features n of l (r, n) * r (n, q), whatever order the host adds them in: exactly the
  specification's product at (r, q).
-/
import proofs.«163876_j2061584302171_1_alg».proof.ReferenceIdeal
import proofs.«163876_j2061584302171_1_alg».proof.Proof.DenseSpec
import proofs.«163876_j2061584302171_1_alg».proof.Proof.LibDenseHost

noncomputable section

namespace Cert.ReferenceIdeal.HostDense

open Idealize.ShloMosaic Idealize.ShloMosaic.ValueIdx Idealize.ShloMosaic.DenseBlock
open Cert.ReferenceIdeal

variable [Cert.ReferenceIdeal.Facts₀]

/-- The first layer's `dot_general`, 50000 by 256 times 256 by 256, is the specification's product: index by index,
    both are the sum over the contracted feature axis. -/
theorem dot256 (x : (⟨S50000x256, .f32⟩ : BufTy).Contents (Elt Ideal))
    (w : (⟨S256x256, .f32⟩ : BufTy).Contents (Elt Ideal)) :
    Host.dotGeneral (F := Ideal) (φ₁ := .f32) (φ₂ := .f32) dot_S50000x256_S256x256_S50000x256_1_0_0_1_n_n none x w
      = Cert.Dense.prod256 x w := by
  funext j
  obtain ⟨r, q, rfl⟩ : ∃ (r : Fin 50000) (q : Fin 256), j = ix2 r q := ⟨j 0, j 1, eq_ix2 j⟩
  exact dotGeneral_apply_ix2 (φ₁ := .f32) (φ₂ := .f32) (K := 50000) (N := 256) (Q := 256)
    Facts₀.dot_S50000x256_S256x256_S50000x256_1_0_0_1_n_n_wf .single x w r q

/-- The second layer's `dot_general`, 50000 by 256 times 256 by 16, is the specification's product. -/
theorem dot16 (x : (⟨S50000x256, .f32⟩ : BufTy).Contents (Elt Ideal))
    (w : (⟨S256x16, .f32⟩ : BufTy).Contents (Elt Ideal)) :
    Host.dotGeneral (F := Ideal) (φ₁ := .f32) (φ₂ := .f32) dot_S50000x256_S256x16_S50000x16_1_0_0_1_n_n none x w
      = Cert.Dense.prod16 x w := by
  funext j
  obtain ⟨r, q, rfl⟩ : ∃ (r : Fin 50000) (q : Fin 16), j = ix2 r q := ⟨j 0, j 1, eq_ix2 j⟩
  exact dotGeneral_apply_ix2 (φ₁ := .f32) (φ₂ := .f32) (K := 50000) (N := 256) (Q := 16)
    Facts₀.dot_S50000x256_S256x16_S50000x16_1_0_0_1_n_n_wf .single x w r q

end Cert.ReferenceIdeal.HostDense

end
-- ==== Proof.GlueHead.lean ====
/-
  The first stretch of host operations, in the kernel and in the reference: the forty operations before the first dense
  product. They split the edge list into its source and target rows, append a self-loop per node, count each node's
  incoming edges, take the inverse square root of that count where it is positive, and multiply the two ends' factors
  into one weight per edge. The two programs print this stretch operation for operation alike, so from buffer contents
  that agree on the edge list the two stretches leave the same source row, target row, extended source and target
  lists and edge weights; a buffer neither stretch writes is carried through.
-/
import proofs.«163876_j2061584302171_1_alg».proof.Proof.Gen.KernelIdeal.Launch
import proofs.«163876_j2061584302171_1_alg».proof.Proof.RefRun

set_option maxRecDepth 16384

noncomputable section

namespace Cert.Glue

open Idealize.ShloMosaic Idealize.ShloMosaic.TcCoe Idealize.SL.Sem Idealize.ShloMosaic.StableHlo

variable {F : FTy → Type} [FloatOps F]

/-- Finishes reading the buffers that an operation takes inside a list of operands (a concatenation's pieces): each
    operation's result at its own buffer is its function's value, and at any other buffer what was there before. -/
local macro "reads_in_operand_lists" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

set_option maxHeartbeats 4000000 in
/-- After the first stretch the two programs agree on `main_v1`, a function of the edge list alone. -/
theorem head_main_v1 (VK : Valuation Cert.KernelIdeal.τ Cert.KernelIdeal.sig (Elt F)) (VR : Valuation Cert.ReferenceIdeal.τ Cert.ReferenceIdeal.sig (Elt F))
    (h_main_arg1 : VK (Proc.devRef .tc Cert.KernelIdeal.main_arg1) = VR (Proc.devRef .tc Cert.ReferenceIdeal.main_arg1)) :
    StableHlo.after Cert.KernelIdeal.Gen.hostOps0_2 (StableHlo.after Cert.KernelIdeal.Gen.hostOps0_1 (StableHlo.after Cert.KernelIdeal.Gen.hostOps0 VK)) (Proc.devRef .tc Cert.KernelIdeal.main_v1)
      = StableHlo.after ((Cert.ReferenceIdeal.ValueP.ops (F := F)).take 40) VR (Proc.devRef .tc Cert.ReferenceIdeal.main_v1) := by
  simp only [Cert.ReferenceIdeal.ValueP.ops, List.take_succ_cons, List.take_zero, List.drop_succ_cons, List.drop_zero]
  after_results_simp
  reads_in_operand_lists
  rw [h_main_arg1]
  rfl

set_option maxHeartbeats 4000000 in
/-- After the first stretch the two programs agree on `main_v3`, a function of the edge list alone. -/
theorem head_main_v3 (VK : Valuation Cert.KernelIdeal.τ Cert.KernelIdeal.sig (Elt F)) (VR : Valuation Cert.ReferenceIdeal.τ Cert.ReferenceIdeal.sig (Elt F))
    (h_main_arg1 : VK (Proc.devRef .tc Cert.KernelIdeal.main_arg1) = VR (Proc.devRef .tc Cert.ReferenceIdeal.main_arg1)) :
    StableHlo.after Cert.KernelIdeal.Gen.hostOps0_2 (StableHlo.after Cert.KernelIdeal.Gen.hostOps0_1 (StableHlo.after Cert.KernelIdeal.Gen.hostOps0 VK)) (Proc.devRef .tc Cert.KernelIdeal.main_v3)
      = StableHlo.after ((Cert.ReferenceIdeal.ValueP.ops (F := F)).take 40) VR (Proc.devRef .tc Cert.ReferenceIdeal.main_v3) := by
  simp only [Cert.ReferenceIdeal.ValueP.ops, List.take_succ_cons, List.take_zero, List.drop_succ_cons, List.drop_zero]
  after_results_simp
  reads_in_operand_lists
  rw [h_main_arg1]
  rfl

set_option maxHeartbeats 4000000 in
/-- After the first stretch the two programs agree on `main_v5`, a function of the edge list alone. -/
theorem head_main_v5 (VK : Valuation Cert.KernelIdeal.τ Cert.KernelIdeal.sig (Elt F)) (VR : Valuation Cert.ReferenceIdeal.τ Cert.ReferenceIdeal.sig (Elt F))
    (h_main_arg1 : VK (Proc.devRef .tc Cert.KernelIdeal.main_arg1) = VR (Proc.devRef .tc Cert.ReferenceIdeal.main_arg1)) :
    StableHlo.after Cert.KernelIdeal.Gen.hostOps0_2 (StableHlo.after Cert.KernelIdeal.Gen.hostOps0_1 (StableHlo.after Cert.KernelIdeal.Gen.hostOps0 VK)) (Proc.devRef .tc Cert.KernelIdeal.main_v5)
      = StableHlo.after ((Cert.ReferenceIdeal.ValueP.ops (F := F)).take 40) VR (Proc.devRef .tc Cert.ReferenceIdeal.main_v5) := by
  simp only [Cert.ReferenceIdeal.ValueP.ops, List.take_succ_cons, List.take_zero, List.drop_succ_cons, List.drop_zero]
  after_results_simp
  reads_in_operand_lists
  rw [h_main_arg1]
  rfl

set_option maxHeartbeats 4000000 in
/-- After the first stretch the two programs agree on `main_v6`, a function of the edge list alone. -/
theorem head_main_v6 (VK : Valuation Cert.KernelIdeal.τ Cert.KernelIdeal.sig (Elt F)) (VR : Valuation Cert.ReferenceIdeal.τ Cert.ReferenceIdeal.sig (Elt F))
    (h_main_arg1 : VK (Proc.devRef .tc Cert.KernelIdeal.main_arg1) = VR (Proc.devRef .tc Cert.ReferenceIdeal.main_arg1)) :
    StableHlo.after Cert.KernelIdeal.Gen.hostOps0_2 (StableHlo.after Cert.KernelIdeal.Gen.hostOps0_1 (StableHlo.after Cert.KernelIdeal.Gen.hostOps0 VK)) (Proc.devRef .tc Cert.KernelIdeal.main_v6)
      = StableHlo.after ((Cert.ReferenceIdeal.ValueP.ops (F := F)).take 40) VR (Proc.devRef .tc Cert.ReferenceIdeal.main_v6) := by
  simp only [Cert.ReferenceIdeal.ValueP.ops, List.take_succ_cons, List.take_zero, List.drop_succ_cons, List.drop_zero]
  after_results_simp
  reads_in_operand_lists
  rw [h_main_arg1]
  rfl

set_option maxHeartbeats 4000000 in
/-- After the first stretch the two programs agree on `main_v29`, a function of the edge list alone. -/
theorem head_main_v29 (VK : Valuation Cert.KernelIdeal.τ Cert.KernelIdeal.sig (Elt F)) (VR : Valuation Cert.ReferenceIdeal.τ Cert.ReferenceIdeal.sig (Elt F))
    (h_main_arg1 : VK (Proc.devRef .tc Cert.KernelIdeal.main_arg1) = VR (Proc.devRef .tc Cert.ReferenceIdeal.main_arg1)) :
    StableHlo.after Cert.KernelIdeal.Gen.hostOps0_2 (StableHlo.after Cert.KernelIdeal.Gen.hostOps0_1 (StableHlo.after Cert.KernelIdeal.Gen.hostOps0 VK)) (Proc.devRef .tc Cert.KernelIdeal.main_v29)
      = StableHlo.after ((Cert.ReferenceIdeal.ValueP.ops (F := F)).take 40) VR (Proc.devRef .tc Cert.ReferenceIdeal.main_v29) := by
  simp only [Cert.ReferenceIdeal.ValueP.ops, List.take_succ_cons, List.take_zero, List.drop_succ_cons, List.drop_zero]
  after_results_simp
  reads_in_operand_lists
  rw [h_main_arg1]
  rfl

set_option maxHeartbeats 4000000 in
/-- The first stretch leaves the argument `main_arg0` as it found it, in both programs. -/
theorem head_main_arg0 (VK : Valuation Cert.KernelIdeal.τ Cert.KernelIdeal.sig (Elt F)) (VR : Valuation Cert.ReferenceIdeal.τ Cert.ReferenceIdeal.sig (Elt F))
    (h_main_arg0 : VK (Proc.devRef .tc Cert.KernelIdeal.main_arg0) = VR (Proc.devRef .tc Cert.ReferenceIdeal.main_arg0)) :
    StableHlo.after Cert.KernelIdeal.Gen.hostOps0_2 (StableHlo.after Cert.KernelIdeal.Gen.hostOps0_1 (StableHlo.after Cert.KernelIdeal.Gen.hostOps0 VK)) (Proc.devRef .tc Cert.KernelIdeal.main_arg0)
      = StableHlo.after ((Cert.ReferenceIdeal.ValueP.ops (F := F)).take 40) VR (Proc.devRef .tc Cert.ReferenceIdeal.main_arg0) := by
  simp only [Cert.ReferenceIdeal.ValueP.ops, List.take_succ_cons, List.take_zero, List.drop_succ_cons, List.drop_zero]
  after_results_simp
  exact h_main_arg0

set_option maxHeartbeats 4000000 in
/-- The first stretch leaves the argument `main_arg2` as it found it, in both programs. -/
theorem head_main_arg2 (VK : Valuation Cert.KernelIdeal.τ Cert.KernelIdeal.sig (Elt F)) (VR : Valuation Cert.ReferenceIdeal.τ Cert.ReferenceIdeal.sig (Elt F))
    (h_main_arg2 : VK (Proc.devRef .tc Cert.KernelIdeal.main_arg2) = VR (Proc.devRef .tc Cert.ReferenceIdeal.main_arg2)) :
    StableHlo.after Cert.KernelIdeal.Gen.hostOps0_2 (StableHlo.after Cert.KernelIdeal.Gen.hostOps0_1 (StableHlo.after Cert.KernelIdeal.Gen.hostOps0 VK)) (Proc.devRef .tc Cert.KernelIdeal.main_arg2)
      = StableHlo.after ((Cert.ReferenceIdeal.ValueP.ops (F := F)).take 40) VR (Proc.devRef .tc Cert.ReferenceIdeal.main_arg2) := by
  simp only [Cert.ReferenceIdeal.ValueP.ops, List.take_succ_cons, List.take_zero, List.drop_succ_cons, List.drop_zero]
  after_results_simp
  exact h_main_arg2

set_option maxHeartbeats 4000000 in
/-- The first stretch leaves the argument `main_arg3` as it found it, in both programs. -/
theorem head_main_arg3 (VK : Valuation Cert.KernelIdeal.τ Cert.KernelIdeal.sig (Elt F)) (VR : Valuation Cert.ReferenceIdeal.τ Cert.ReferenceIdeal.sig (Elt F))
    (h_main_arg3 : VK (Proc.devRef .tc Cert.KernelIdeal.main_arg3) = VR (Proc.devRef .tc Cert.ReferenceIdeal.main_arg3)) :
    StableHlo.after Cert.KernelIdeal.Gen.hostOps0_2 (StableHlo.after Cert.KernelIdeal.Gen.hostOps0_1 (StableHlo.after Cert.KernelIdeal.Gen.hostOps0 VK)) (Proc.devRef .tc Cert.KernelIdeal.main_arg3)
      = StableHlo.after ((Cert.ReferenceIdeal.ValueP.ops (F := F)).take 40) VR (Proc.devRef .tc Cert.ReferenceIdeal.main_arg3) := by
  simp only [Cert.ReferenceIdeal.ValueP.ops, List.take_succ_cons, List.take_zero, List.drop_succ_cons, List.drop_zero]
  after_results_simp
  exact h_main_arg3

set_option maxHeartbeats 4000000 in
/-- The first stretch leaves the argument `main_arg4` as it found it, in both programs. -/
theorem head_main_arg4 (VK : Valuation Cert.KernelIdeal.τ Cert.KernelIdeal.sig (Elt F)) (VR : Valuation Cert.ReferenceIdeal.τ Cert.ReferenceIdeal.sig (Elt F))
    (h_main_arg4 : VK (Proc.devRef .tc Cert.KernelIdeal.main_arg4) = VR (Proc.devRef .tc Cert.ReferenceIdeal.main_arg4)) :
    StableHlo.after Cert.KernelIdeal.Gen.hostOps0_2 (StableHlo.after Cert.KernelIdeal.Gen.hostOps0_1 (StableHlo.after Cert.KernelIdeal.Gen.hostOps0 VK)) (Proc.devRef .tc Cert.KernelIdeal.main_arg4)
      = StableHlo.after ((Cert.ReferenceIdeal.ValueP.ops (F := F)).take 40) VR (Proc.devRef .tc Cert.ReferenceIdeal.main_arg4) := by
  simp only [Cert.ReferenceIdeal.ValueP.ops, List.take_succ_cons, List.take_zero, List.drop_succ_cons, List.drop_zero]
  after_results_simp
  exact h_main_arg4

set_option maxHeartbeats 4000000 in
/-- The first stretch leaves the argument `main_arg5` as it found it, in both programs. -/
theorem head_main_arg5 (VK : Valuation Cert.KernelIdeal.τ Cert.KernelIdeal.sig (Elt F)) (VR : Valuation Cert.ReferenceIdeal.τ Cert.ReferenceIdeal.sig (Elt F))
    (h_main_arg5 : VK (Proc.devRef .tc Cert.KernelIdeal.main_arg5) = VR (Proc.devRef .tc Cert.ReferenceIdeal.main_arg5)) :
    StableHlo.after Cert.KernelIdeal.Gen.hostOps0_2 (StableHlo.after Cert.KernelIdeal.Gen.hostOps0_1 (StableHlo.after Cert.KernelIdeal.Gen.hostOps0 VK)) (Proc.devRef .tc Cert.KernelIdeal.main_arg5)
      = StableHlo.after ((Cert.ReferenceIdeal.ValueP.ops (F := F)).take 40) VR (Proc.devRef .tc Cert.ReferenceIdeal.main_arg5) := by
  simp only [Cert.ReferenceIdeal.ValueP.ops, List.take_succ_cons, List.take_zero, List.drop_succ_cons, List.drop_zero]
  after_results_simp
  exact h_main_arg5

end Cert.Glue

end
-- ==== Proof.GlueMid.lean ====
/-
  The second stretch: from the first dense product to the second. Each edge gathers its source node's row of the
  product and scales it by the edge's weight; the scaled rows are summed into their target nodes; the bias row is added
  and negative entries are clamped to zero. The stretch then rebuilds the self-looped edge lists and the edge weights for
  the second layer. The kernel enters this stretch with the product already in `main_v30` (its first region wrote
  it); the reference's stretch begins with the `dot_general` that writes it. So from contents where the kernel's
  `main_v30` is that product of the reference's arguments, and which agree on everything else the stretch reads, both
  leave the same hidden features, edge lists and edge weights.
-/
import proofs.«163876_j2061584302171_1_alg».proof.Proof.Gen.KernelIdeal.Launch
import proofs.«163876_j2061584302171_1_alg».proof.Proof.RefRun

set_option maxRecDepth 16384

noncomputable section

namespace Cert.Glue

open Idealize.ShloMosaic Idealize.ShloMosaic.TcCoe Idealize.SL.Sem Idealize.ShloMosaic.StableHlo

variable {F : FTy → Type} [FloatOps F]

/-- Finishes reading the buffers that an operation takes inside a list of operands (a concatenation's pieces): each
    operation's result at its own buffer is its function's value, and at any other buffer what was there before. -/
local macro "reads_in_operand_lists" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

set_option maxHeartbeats 8000000 in
/-- The hidden features after the first layer: gathered, weighted, summed per target node, biased and clamped. -/
theorem mid_main_v47 (VK : Valuation Cert.KernelIdeal.τ Cert.KernelIdeal.sig (Elt F)) (VR : Valuation Cert.ReferenceIdeal.τ Cert.ReferenceIdeal.sig (Elt F))
    (h_main_v30 : VK (Proc.devRef .tc Cert.KernelIdeal.main_v30) = Host.dotGeneral Cert.ReferenceIdeal.dot_S50000x256_S256x256_S50000x256_1_0_0_1_n_n none (VR (Proc.devRef .tc Cert.ReferenceIdeal.main_arg0)) (VR (Proc.devRef .tc Cert.ReferenceIdeal.main_arg2)))
    (h_main_v5 : VK (Proc.devRef .tc Cert.KernelIdeal.main_v5) = VR (Proc.devRef .tc Cert.ReferenceIdeal.main_v5))
    (h_main_v29 : VK (Proc.devRef .tc Cert.KernelIdeal.main_v29) = VR (Proc.devRef .tc Cert.ReferenceIdeal.main_v29))
    (h_main_v6 : VK (Proc.devRef .tc Cert.KernelIdeal.main_v6) = VR (Proc.devRef .tc Cert.ReferenceIdeal.main_v6))
    (h_main_arg3 : VK (Proc.devRef .tc Cert.KernelIdeal.main_arg3) = VR (Proc.devRef .tc Cert.ReferenceIdeal.main_arg3)) :
    StableHlo.after Cert.KernelIdeal.Gen.hostOps1_4 (StableHlo.after Cert.KernelIdeal.Gen.hostOps1_3 (StableHlo.after Cert.KernelIdeal.Gen.hostOps1_2 (StableHlo.after Cert.KernelIdeal.Gen.hostOps1_1 (StableHlo.after Cert.KernelIdeal.Gen.hostOps1 VK)))) (Proc.devRef .tc Cert.KernelIdeal.main_v47)
      = StableHlo.after (((Cert.ReferenceIdeal.ValueP.ops (F := F)).drop 40).take 59) VR (Proc.devRef .tc Cert.ReferenceIdeal.main_v47) := by
  simp only [Cert.ReferenceIdeal.ValueP.ops, List.take_succ_cons, List.take_zero, List.drop_succ_cons, List.drop_zero]
  after_results_simp
  reads_in_operand_lists
  rw [h_main_v30, h_main_v5, h_main_v29, h_main_v6, h_main_arg3]
  rfl

set_option maxHeartbeats 8000000 in
/-- The second layer's source list with its self-loops. -/
theorem mid_main_v49 (VK : Valuation Cert.KernelIdeal.τ Cert.KernelIdeal.sig (Elt F)) (VR : Valuation Cert.ReferenceIdeal.τ Cert.ReferenceIdeal.sig (Elt F))
    (h_main_v1 : VK (Proc.devRef .tc Cert.KernelIdeal.main_v1) = VR (Proc.devRef .tc Cert.ReferenceIdeal.main_v1)) :
    StableHlo.after Cert.KernelIdeal.Gen.hostOps1_4 (StableHlo.after Cert.KernelIdeal.Gen.hostOps1_3 (StableHlo.after Cert.KernelIdeal.Gen.hostOps1_2 (StableHlo.after Cert.KernelIdeal.Gen.hostOps1_1 (StableHlo.after Cert.KernelIdeal.Gen.hostOps1 VK)))) (Proc.devRef .tc Cert.KernelIdeal.main_v49)
      = StableHlo.after (((Cert.ReferenceIdeal.ValueP.ops (F := F)).drop 40).take 59) VR (Proc.devRef .tc Cert.ReferenceIdeal.main_v49) := by
  simp only [Cert.ReferenceIdeal.ValueP.ops, List.take_succ_cons, List.take_zero, List.drop_succ_cons, List.drop_zero]
  after_results_simp
  reads_in_operand_lists
  rw [h_main_v1]

set_option maxHeartbeats 8000000 in
/-- The second layer's target list with its self-loops. -/
theorem mid_main_v50 (VK : Valuation Cert.KernelIdeal.τ Cert.KernelIdeal.sig (Elt F)) (VR : Valuation Cert.ReferenceIdeal.τ Cert.ReferenceIdeal.sig (Elt F))
    (h_main_v3 : VK (Proc.devRef .tc Cert.KernelIdeal.main_v3) = VR (Proc.devRef .tc Cert.ReferenceIdeal.main_v3)) :
    StableHlo.after Cert.KernelIdeal.Gen.hostOps1_4 (StableHlo.after Cert.KernelIdeal.Gen.hostOps1_3 (StableHlo.after Cert.KernelIdeal.Gen.hostOps1_2 (StableHlo.after Cert.KernelIdeal.Gen.hostOps1_1 (StableHlo.after Cert.KernelIdeal.Gen.hostOps1 VK)))) (Proc.devRef .tc Cert.KernelIdeal.main_v50)
      = StableHlo.after (((Cert.ReferenceIdeal.ValueP.ops (F := F)).drop 40).take 59) VR (Proc.devRef .tc Cert.ReferenceIdeal.main_v50) := by
  simp only [Cert.ReferenceIdeal.ValueP.ops, List.take_succ_cons, List.take_zero, List.drop_succ_cons, List.drop_zero]
  after_results_simp
  reads_in_operand_lists
  rw [h_main_v3]

set_option maxHeartbeats 8000000 in
/-- The second stretch leaves the argument `main_arg4` as it found it, in both programs. -/
theorem mid_main_arg4 (VK : Valuation Cert.KernelIdeal.τ Cert.KernelIdeal.sig (Elt F)) (VR : Valuation Cert.ReferenceIdeal.τ Cert.ReferenceIdeal.sig (Elt F))
    (h_main_arg4 : VK (Proc.devRef .tc Cert.KernelIdeal.main_arg4) = VR (Proc.devRef .tc Cert.ReferenceIdeal.main_arg4)) :
    StableHlo.after Cert.KernelIdeal.Gen.hostOps1_4 (StableHlo.after Cert.KernelIdeal.Gen.hostOps1_3 (StableHlo.after Cert.KernelIdeal.Gen.hostOps1_2 (StableHlo.after Cert.KernelIdeal.Gen.hostOps1_1 (StableHlo.after Cert.KernelIdeal.Gen.hostOps1 VK)))) (Proc.devRef .tc Cert.KernelIdeal.main_arg4)
      = StableHlo.after (((Cert.ReferenceIdeal.ValueP.ops (F := F)).drop 40).take 59) VR (Proc.devRef .tc Cert.ReferenceIdeal.main_arg4) := by
  simp only [Cert.ReferenceIdeal.ValueP.ops, List.take_succ_cons, List.take_zero, List.drop_succ_cons, List.drop_zero]
  after_results_simp
  exact h_main_arg4

set_option maxHeartbeats 8000000 in
/-- The second stretch leaves the argument `main_arg5` as it found it, in both programs. -/
theorem mid_main_arg5 (VK : Valuation Cert.KernelIdeal.τ Cert.KernelIdeal.sig (Elt F)) (VR : Valuation Cert.ReferenceIdeal.τ Cert.ReferenceIdeal.sig (Elt F))
    (h_main_arg5 : VK (Proc.devRef .tc Cert.KernelIdeal.main_arg5) = VR (Proc.devRef .tc Cert.ReferenceIdeal.main_arg5)) :
    StableHlo.after Cert.KernelIdeal.Gen.hostOps1_4 (StableHlo.after Cert.KernelIdeal.Gen.hostOps1_3 (StableHlo.after Cert.KernelIdeal.Gen.hostOps1_2 (StableHlo.after Cert.KernelIdeal.Gen.hostOps1_1 (StableHlo.after Cert.KernelIdeal.Gen.hostOps1 VK)))) (Proc.devRef .tc Cert.KernelIdeal.main_arg5)
      = StableHlo.after (((Cert.ReferenceIdeal.ValueP.ops (F := F)).drop 40).take 59) VR (Proc.devRef .tc Cert.ReferenceIdeal.main_arg5) := by
  simp only [Cert.ReferenceIdeal.ValueP.ops, List.take_succ_cons, List.take_zero, List.drop_succ_cons, List.drop_zero]
  after_results_simp
  exact h_main_arg5

end Cert.Glue

end
-- ==== Proof.GlueMidWeights.lean ====
/-
  The second layer's edge weights. The second stretch rebuilds the self-looped source and target lists from the two
  rows of the edge list, counts each node's incoming edges again, takes the inverse square root of the positive counts,
  and multiplies the two ends' factors into one weight per edge. Nothing of this depends on the dense products: from
  buffer contents that agree on the two edge rows, the kernel's stretch and the reference's leave the same weights.
-/
import proofs.«163876_j2061584302171_1_alg».proof.Proof.Gen.KernelIdeal.Launch
import proofs.«163876_j2061584302171_1_alg».proof.Proof.RefRun

set_option maxRecDepth 16384

noncomputable section

namespace Cert.Glue

open Idealize.ShloMosaic Idealize.ShloMosaic.TcCoe Idealize.SL.Sem Idealize.ShloMosaic.StableHlo

variable {F : FTy → Type} [FloatOps F]

/-- Finishes reading the buffers that an operation takes inside a list of operands (a concatenation's pieces): each
    operation's result at its own buffer is its function's value, and at any other buffer what was there before. -/
local macro "reads_in_operand_lists" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

set_option maxHeartbeats 8000000 in
/-- The second layer's edge weights, a function of the two edge rows. -/
theorem mid_main_v73 (VK : Valuation Cert.KernelIdeal.τ Cert.KernelIdeal.sig (Elt F)) (VR : Valuation Cert.ReferenceIdeal.τ Cert.ReferenceIdeal.sig (Elt F))
    (h_main_v1 : VK (Proc.devRef .tc Cert.KernelIdeal.main_v1) = VR (Proc.devRef .tc Cert.ReferenceIdeal.main_v1))
    (h_main_v3 : VK (Proc.devRef .tc Cert.KernelIdeal.main_v3) = VR (Proc.devRef .tc Cert.ReferenceIdeal.main_v3)) :
    StableHlo.after Cert.KernelIdeal.Gen.hostOps1_4 (StableHlo.after Cert.KernelIdeal.Gen.hostOps1_3 (StableHlo.after Cert.KernelIdeal.Gen.hostOps1_2 (StableHlo.after Cert.KernelIdeal.Gen.hostOps1_1 (StableHlo.after Cert.KernelIdeal.Gen.hostOps1 VK)))) (Proc.devRef .tc Cert.KernelIdeal.main_v73)
      = StableHlo.after (((Cert.ReferenceIdeal.ValueP.ops (F := F)).drop 40).take 59) VR (Proc.devRef .tc Cert.ReferenceIdeal.main_v73) := by
  simp only [Cert.ReferenceIdeal.ValueP.ops, List.take_succ_cons, List.take_zero, List.drop_succ_cons, List.drop_zero]
  after_results_simp
  reads_in_operand_lists
  rw [h_main_v1, h_main_v3]
  rfl

end Cert.Glue

end
-- ==== Proof.GlueTail.lean ====
/-
  The last stretch: from the second dense product to the result. The second layer's gather, weighting, per-node sum
  and bias, then a softmax along each node's sixteen classes (subtract the row maximum, exponentiate, divide by the row
  sum). The kernel enters it with the second product in `main_v74`; the reference's stretch begins with the
  `dot_general` that writes it. From contents that agree on what the stretch reads, the two results are the same
  array. Last, the reference's whole list of operations is its three stretches one after the other.
-/
import proofs.«163876_j2061584302171_1_alg».proof.Proof.Gen.KernelIdeal.Launch
import proofs.«163876_j2061584302171_1_alg».proof.Proof.RefRun

set_option maxRecDepth 16384

noncomputable section

namespace Cert.Glue

open Idealize.ShloMosaic Idealize.ShloMosaic.TcCoe Idealize.SL.Sem Idealize.ShloMosaic.StableHlo

variable {F : FTy → Type} [FloatOps F]

set_option maxHeartbeats 8000000 in
/-- The result: the class probabilities of every node. -/
theorem tail_main_v101 (VK : Valuation Cert.KernelIdeal.τ Cert.KernelIdeal.sig (Elt F)) (VR : Valuation Cert.ReferenceIdeal.τ Cert.ReferenceIdeal.sig (Elt F))
    (h_main_v74 : VK (Proc.devRef .tc Cert.KernelIdeal.main_v74) = Host.dotGeneral Cert.ReferenceIdeal.dot_S50000x256_S256x16_S50000x16_1_0_0_1_n_n none (VR (Proc.devRef .tc Cert.ReferenceIdeal.main_v47)) (VR (Proc.devRef .tc Cert.ReferenceIdeal.main_arg4)))
    (h_main_v49 : VK (Proc.devRef .tc Cert.KernelIdeal.main_v49) = VR (Proc.devRef .tc Cert.ReferenceIdeal.main_v49))
    (h_main_v73 : VK (Proc.devRef .tc Cert.KernelIdeal.main_v73) = VR (Proc.devRef .tc Cert.ReferenceIdeal.main_v73))
    (h_main_v50 : VK (Proc.devRef .tc Cert.KernelIdeal.main_v50) = VR (Proc.devRef .tc Cert.ReferenceIdeal.main_v50))
    (h_main_arg5 : VK (Proc.devRef .tc Cert.KernelIdeal.main_arg5) = VR (Proc.devRef .tc Cert.ReferenceIdeal.main_arg5)) :
    StableHlo.after Cert.KernelIdeal.Gen.hostOps2 VK (Proc.devRef .tc Cert.KernelIdeal.main_v101)
      = StableHlo.after ((Cert.ReferenceIdeal.ValueP.ops (F := F)).drop 99) VR (Proc.devRef .tc Cert.ReferenceIdeal.main_v101) := by
  simp only [Cert.ReferenceIdeal.ValueP.ops, List.take_succ_cons, List.take_zero, List.drop_succ_cons, List.drop_zero]
  after_results_simp
  rw [h_main_v74, h_main_v49, h_main_v73, h_main_v50, h_main_arg5]
  rfl

set_option maxHeartbeats 4000000 in
/-- The reference's fold over all its operations is the fold over the three stretches in turn. -/
theorem ref_split (VR : Valuation Cert.ReferenceIdeal.τ Cert.ReferenceIdeal.sig (Elt F)) :
    StableHlo.after (Cert.ReferenceIdeal.ValueP.ops (F := F)) VR
      = StableHlo.after ((Cert.ReferenceIdeal.ValueP.ops (F := F)).drop 99) (StableHlo.after (((Cert.ReferenceIdeal.ValueP.ops (F := F)).drop 40).take 59) (StableHlo.after ((Cert.ReferenceIdeal.ValueP.ops (F := F)).take 40) VR)) := by
  simp only [Cert.ReferenceIdeal.ValueP.ops, List.take_succ_cons, List.take_zero, List.drop_succ_cons, List.drop_zero, after_cons, after_nil]

end Cert.Glue

end
-- ==== Proof.Bridge.lean ====
/-
  The two idealized programs compute one function. Both are the same three stretches of host operations around two
  dense products; the kernel computes each product in a pipelined region, block of rows by block of rows, the reference
  by one `dot_general`. Suppose each region leaves in its output array the `dot_general` product of the two arrays it
  found on entry. Then, from launch memories that agree on the six arguments, the contents of the kernel's buffers
  after each segment agree with the reference's after the corresponding operations, on every buffer a later segment
  reads: after the first stretch on the edge lists, the edge weights and the arguments; after the first region also on
  the first product; after the second stretch on the hidden features, the second layer's edge lists and weights; after
  the second region on the second product; and after the last stretch on the result.
-/
import proofs.«163876_j2061584302171_1_alg».proof.Proof.Gen.KernelIdeal.Frame
import proofs.«163876_j2061584302171_1_alg».proof.Proof.RefRun
import proofs.«163876_j2061584302171_1_alg».proof.Proof.GlueHead
import proofs.«163876_j2061584302171_1_alg».proof.Proof.GlueMid
import proofs.«163876_j2061584302171_1_alg».proof.Proof.GlueMidWeights
import proofs.«163876_j2061584302171_1_alg».proof.Proof.GlueTail
import Idealize.ShloMosaic.PureOps.Ideal

set_option maxRecDepth 16384

noncomputable section

namespace Cert.Bridge

open Idealize.ShloMosaic Idealize.ShloMosaic.TcCoe Idealize.SL.Sem Idealize.ShloMosaic.StableHlo

/-- The kernel's result buffer after its last stretch is the reference's after all its operations, on every core,
    when the two launch memories agree on the arguments and each region's output array is the host product of the
    arrays the region found. -/
theorem result_eq
    (hreg0 : ∀ (V : (c : Dev Cert.KernelIdeal.nD) → (b : Ref Cert.KernelIdeal.sig .tc) → Buf (Elt Ideal) ((c : Thread Cert.KernelIdeal.nD Cert.KernelIdeal.τ).loc b)) (c : Dev Cert.KernelIdeal.nD),
      (Cert.KernelIdeal.Gen.dat0 (F := Ideal) V c).arrAt 2 Cert.KernelIdeal.cfg0.N
        = Host.dotGeneral (F := Ideal) (φ₁ := .f32) (φ₂ := .f32) Cert.ReferenceIdeal.dot_S50000x256_S256x256_S50000x256_1_0_0_1_n_n none (V c Cert.KernelIdeal.main_arg0) (V c Cert.KernelIdeal.main_arg2))
    (hreg1 : ∀ (V : (c : Dev Cert.KernelIdeal.nD) → (b : Ref Cert.KernelIdeal.sig .tc) → Buf (Elt Ideal) ((c : Thread Cert.KernelIdeal.nD Cert.KernelIdeal.τ).loc b)) (c : Dev Cert.KernelIdeal.nD),
      (Cert.KernelIdeal.Gen.dat1 (F := Ideal) V c).arrAt 2 Cert.KernelIdeal.cfg1.N
        = Host.dotGeneral (F := Ideal) (φ₁ := .f32) (φ₂ := .f32) Cert.ReferenceIdeal.dot_S50000x256_S256x16_S50000x16_1_0_0_1_n_n none (V c Cert.KernelIdeal.main_v47) (V c Cert.KernelIdeal.main_arg4))
    (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (hag0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (hag1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (hag2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (hag3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (hag4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (hag5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.KernelIdeal.Gen.W11 m ρ c (Proc.devRef .tc Cert.KernelIdeal.main_v101)
      = StableHlo.after (Cert.ReferenceIdeal.ValueP.ops (F := Ideal)) (StableHlo.launchContents m' c) (Proc.devRef .tc Cert.ReferenceIdeal.main_v101) := by
  rw [Cert.Glue.ref_split]
  -- the launch contents agree on the arguments
  have a0 : Cert.KernelIdeal.Gen.W0 m ρ c (Proc.devRef .tc Cert.KernelIdeal.main_arg0) = StableHlo.launchContents m' c (Proc.devRef .tc Cert.ReferenceIdeal.main_arg0) := hag0.symm
  have a1 : Cert.KernelIdeal.Gen.W0 m ρ c (Proc.devRef .tc Cert.KernelIdeal.main_arg1) = StableHlo.launchContents m' c (Proc.devRef .tc Cert.ReferenceIdeal.main_arg1) := hag1.symm
  have a2 : Cert.KernelIdeal.Gen.W0 m ρ c (Proc.devRef .tc Cert.KernelIdeal.main_arg2) = StableHlo.launchContents m' c (Proc.devRef .tc Cert.ReferenceIdeal.main_arg2) := hag2.symm
  have a3 : Cert.KernelIdeal.Gen.W0 m ρ c (Proc.devRef .tc Cert.KernelIdeal.main_arg3) = StableHlo.launchContents m' c (Proc.devRef .tc Cert.ReferenceIdeal.main_arg3) := hag3.symm
  have a4 : Cert.KernelIdeal.Gen.W0 m ρ c (Proc.devRef .tc Cert.KernelIdeal.main_arg4) = StableHlo.launchContents m' c (Proc.devRef .tc Cert.ReferenceIdeal.main_arg4) := hag4.symm
  have a5 : Cert.KernelIdeal.Gen.W0 m ρ c (Proc.devRef .tc Cert.KernelIdeal.main_arg5) = StableHlo.launchContents m' c (Proc.devRef .tc Cert.ReferenceIdeal.main_arg5) := hag5.symm
  -- after the first stretch
  have b1 := Cert.Glue.head_main_v1 (Cert.KernelIdeal.Gen.W0 m ρ c) (StableHlo.launchContents m' c) a1
  have b3 := Cert.Glue.head_main_v3 (Cert.KernelIdeal.Gen.W0 m ρ c) (StableHlo.launchContents m' c) a1
  have b5 := Cert.Glue.head_main_v5 (Cert.KernelIdeal.Gen.W0 m ρ c) (StableHlo.launchContents m' c) a1
  have b6 := Cert.Glue.head_main_v6 (Cert.KernelIdeal.Gen.W0 m ρ c) (StableHlo.launchContents m' c) a1
  have b29 := Cert.Glue.head_main_v29 (Cert.KernelIdeal.Gen.W0 m ρ c) (StableHlo.launchContents m' c) a1
  have ba0 := Cert.Glue.head_main_arg0 (Cert.KernelIdeal.Gen.W0 m ρ c) (StableHlo.launchContents m' c) a0
  have ba2 := Cert.Glue.head_main_arg2 (Cert.KernelIdeal.Gen.W0 m ρ c) (StableHlo.launchContents m' c) a2
  have ba3 := Cert.Glue.head_main_arg3 (Cert.KernelIdeal.Gen.W0 m ρ c) (StableHlo.launchContents m' c) a3
  have ba4 := Cert.Glue.head_main_arg4 (Cert.KernelIdeal.Gen.W0 m ρ c) (StableHlo.launchContents m' c) a4
  have ba5 := Cert.Glue.head_main_arg5 (Cert.KernelIdeal.Gen.W0 m ρ c) (StableHlo.launchContents m' c) a5
  -- after the first region: its output array is the product; every other buffer is as the region found it
  have c30 : Cert.KernelIdeal.Gen.W4 m ρ c (Proc.devRef .tc Cert.KernelIdeal.main_v30) = _ :=
    ((Cert.KernelIdeal.Gen.W4_arr m ρ c 2).trans (hreg0 (Cert.KernelIdeal.Gen.V3 m ρ) c)).trans (by rw [show Cert.KernelIdeal.Gen.V3 m ρ c Cert.KernelIdeal.main_arg0 = _ from ba0, show Cert.KernelIdeal.Gen.V3 m ρ c Cert.KernelIdeal.main_arg2 = _ from ba2])
  have c1 := (Cert.KernelIdeal.Gen.W4_of_ne m ρ c Cert.KernelIdeal.main_v1 (by decide)).trans b1
  have c3 := (Cert.KernelIdeal.Gen.W4_of_ne m ρ c Cert.KernelIdeal.main_v3 (by decide)).trans b3
  have c5 := (Cert.KernelIdeal.Gen.W4_of_ne m ρ c Cert.KernelIdeal.main_v5 (by decide)).trans b5
  have c6 := (Cert.KernelIdeal.Gen.W4_of_ne m ρ c Cert.KernelIdeal.main_v6 (by decide)).trans b6
  have c29 := (Cert.KernelIdeal.Gen.W4_of_ne m ρ c Cert.KernelIdeal.main_v29 (by decide)).trans b29
  have ca3 := (Cert.KernelIdeal.Gen.W4_of_ne m ρ c Cert.KernelIdeal.main_arg3 (by decide)).trans ba3
  have ca4 := (Cert.KernelIdeal.Gen.W4_of_ne m ρ c Cert.KernelIdeal.main_arg4 (by decide)).trans ba4
  have ca5 := (Cert.KernelIdeal.Gen.W4_of_ne m ρ c Cert.KernelIdeal.main_arg5 (by decide)).trans ba5
  -- after the second stretch
  have d47 := Cert.Glue.mid_main_v47 (Cert.KernelIdeal.Gen.W4 m ρ c) _ c30 c5 c29 c6 ca3
  have d49 := Cert.Glue.mid_main_v49 (Cert.KernelIdeal.Gen.W4 m ρ c) _ c1
  have d50 := Cert.Glue.mid_main_v50 (Cert.KernelIdeal.Gen.W4 m ρ c) _ c3
  have d73 := Cert.Glue.mid_main_v73 (Cert.KernelIdeal.Gen.W4 m ρ c) _ c1 c3
  have da4 := Cert.Glue.mid_main_arg4 (Cert.KernelIdeal.Gen.W4 m ρ c) _ ca4
  have da5 := Cert.Glue.mid_main_arg5 (Cert.KernelIdeal.Gen.W4 m ρ c) _ ca5
  -- after the second region
  have e74 : Cert.KernelIdeal.Gen.W10 m ρ c (Proc.devRef .tc Cert.KernelIdeal.main_v74) = _ :=
    ((Cert.KernelIdeal.Gen.W10_arr m ρ c 2).trans (hreg1 (Cert.KernelIdeal.Gen.V9 m ρ) c)).trans (by rw [show Cert.KernelIdeal.Gen.V9 m ρ c Cert.KernelIdeal.main_v47 = _ from d47, show Cert.KernelIdeal.Gen.V9 m ρ c Cert.KernelIdeal.main_arg4 = _ from da4])
  have e49 := (Cert.KernelIdeal.Gen.W10_of_ne m ρ c Cert.KernelIdeal.main_v49 (by decide)).trans d49
  have e50 := (Cert.KernelIdeal.Gen.W10_of_ne m ρ c Cert.KernelIdeal.main_v50 (by decide)).trans d50
  have e73 := (Cert.KernelIdeal.Gen.W10_of_ne m ρ c Cert.KernelIdeal.main_v73 (by decide)).trans d73
  have ea5 := (Cert.KernelIdeal.Gen.W10_of_ne m ρ c Cert.KernelIdeal.main_arg5 (by decide)).trans da5
  -- after the last stretch
  exact Cert.Glue.tail_main_v101 (Cert.KernelIdeal.Gen.W10 m ρ c) _ e74 e49 e73 e50 ea5

end Cert.Bridge

end
-- ==== Proof.lean ====
/-
  A two-layer graph convolution, as a tiled kernel and as a plain jnp function, computes the same class probabilities
  over the extended reals.

  Both programs add a self-loop to every node, weight each edge by the inverse square roots of its two ends' degrees,
  and twice apply "multiply the node features by a weight matrix, gather each edge's source row, scale it by the edge's
  weight, sum the scaled rows into their target nodes, add a bias" — clamping negative entries between the layers and
  taking a softmax over the sixteen classes at the end. They differ only in how the two matrix products are computed:
  the reference by one `dot_general` each, the kernel block of 2000 rows by block of 2000 rows on the matrix unit, with
  both operands first narrowed to bf16. Over the extended reals narrowing is the identity and a matrix-unit product into
  a zero accumulator is the plain sum `Σ n, x (r, n) * w (n, q)`, the same sum the `dot_general` denotes; a block's rows
  depend only on that block of the features and on the whole weight matrix, and the 25 blocks cover all 50000 rows. Every
  other operation is the same operation in the two programs, so by induction along the program the buffers agree
  (`Cert.Bridge.result_eq`). No algebraic law beyond that is used, and none that needs finite inputs: the precondition
  is never opened.

  The frames of the two kernel programs are the generated ones. The reference has no kernel: every one of its buffers
  ends at the fold of its operations over the launch contents, and no operation writes an argument. The idealization
  rewrote no operation, so there is nothing to preserve.
-/
import proofs.«163876_j2061584302171_1_alg».proof.Defs
import proofs.«163876_j2061584302171_1_alg».proof.Proof.Gen.Kernel
import proofs.«163876_j2061584302171_1_alg».proof.Proof.Gen.Kernel.Skeleton
import proofs.«163876_j2061584302171_1_alg».proof.Proof.Gen.Kernel.Launch
import proofs.«163876_j2061584302171_1_alg».proof.Proof.Gen.Kernel.Points
import proofs.«163876_j2061584302171_1_alg».proof.Proof.Gen.Kernel.Frame
import proofs.«163876_j2061584302171_1_alg».proof.Proof.Gen.KernelIdeal
import proofs.«163876_j2061584302171_1_alg».proof.Proof.Gen.KernelIdeal.Skeleton
import proofs.«163876_j2061584302171_1_alg».proof.Proof.Gen.KernelIdeal.Launch
import proofs.«163876_j2061584302171_1_alg».proof.Proof.Gen.KernelIdeal.Points
import proofs.«163876_j2061584302171_1_alg».proof.Proof.Gen.KernelIdeal.Frame
import proofs.«163876_j2061584302171_1_alg».proof.Proof.Gen.ReferenceIdeal
import proofs.«163876_j2061584302171_1_alg».proof.Proof.Gen.Pre_finite_inputs
import proofs.«163876_j2061584302171_1_alg».proof.Proof.KernelRun
import proofs.«163876_j2061584302171_1_alg».proof.Proof.RefRun
import proofs.«163876_j2061584302171_1_alg».proof.Proof.GlueRefArgs
import proofs.«163876_j2061584302171_1_alg».proof.Proof.RegionValue
import proofs.«163876_j2061584302171_1_alg».proof.Proof.HostDense
import proofs.«163876_j2061584302171_1_alg».proof.Proof.Bridge
import Idealize.ShloMosaic.Adequacy
import Idealize.ShloMosaic.Init

noncomputable section

namespace Cert.Proof

open Idealize.ShloMosaic Idealize.ShloMosaic.TcCoe Idealize.SL.Sem Idealize.ShloMosaic.StableHlo

theorem frame_kernel : Cert.frame_Kernel := fun m ρ _ => Cert.Kernel.Gen.frame m ρ

theorem frame_kernelIdeal : Cert.frame_KernelIdeal := fun m ρ _ => Cert.KernelIdeal.Gen.frame m ρ

/-- The reference runs, and each argument array ends as launched: every buffer ends at the fold of the operations over
    the launch contents, and that fold leaves the arguments alone. -/
theorem frame_referenceIdeal : Cert.frame_ReferenceIdeal := fun m ρ _ =>
  (θ_run Cert.ReferenceIdeal.defs _ _).mono (fun _ h c =>
      ⟨(h c Cert.ReferenceIdeal.main_arg0).trans (Cert.Glue.ref_main_arg0 _),
       (h c Cert.ReferenceIdeal.main_arg1).trans (Cert.Glue.ref_main_arg1 _),
       (h c Cert.ReferenceIdeal.main_arg2).trans (Cert.Glue.ref_main_arg2 _),
       (h c Cert.ReferenceIdeal.main_arg3).trans (Cert.Glue.ref_main_arg3 _),
       (h c Cert.ReferenceIdeal.main_arg4).trans (Cert.Glue.ref_main_arg4 _),
       (h c Cert.ReferenceIdeal.main_arg5).trans (Cert.Glue.ref_main_arg5 _)⟩)
    (Cert.ReferenceIdeal.ValueP.run (F := Ideal) m ρ)

/-- The idealization rewrote no operation. -/
theorem preserves : Cert.preserves_Kernel_KernelIdeal := trivial

/-- A region's output array, after all 25 blocks are written back, is the `dot_general` product of the two arrays the
    region found: both are `Σ n, x (r, n) * w (n, q)` at every entry. -/
theorem region0_is_dot (V : (c : Dev Cert.KernelIdeal.nD) → (b : Ref Cert.KernelIdeal.sig .tc) →
      Buf (Elt Ideal) ((c : Thread Cert.KernelIdeal.nD Cert.KernelIdeal.τ).loc b)) (c : Dev Cert.KernelIdeal.nD) :
    (Cert.KernelIdeal.Gen.dat0 (F := Ideal) V c).arrAt 2 Cert.KernelIdeal.cfg0.N
      = Host.dotGeneral (F := Ideal) (φ₁ := .f32) (φ₂ := .f32) Cert.ReferenceIdeal.dot_S50000x256_S256x256_S50000x256_1_0_0_1_n_n none
          (V c Cert.KernelIdeal.main_arg0) (V c Cert.KernelIdeal.main_arg2) :=
  (Cert.KernelIdeal.RegionValue.array0 V c).trans (Cert.ReferenceIdeal.HostDense.dot256 _ _).symm

theorem region1_is_dot (V : (c : Dev Cert.KernelIdeal.nD) → (b : Ref Cert.KernelIdeal.sig .tc) →
      Buf (Elt Ideal) ((c : Thread Cert.KernelIdeal.nD Cert.KernelIdeal.τ).loc b)) (c : Dev Cert.KernelIdeal.nD) :
    (Cert.KernelIdeal.Gen.dat1 (F := Ideal) V c).arrAt 2 Cert.KernelIdeal.cfg1.N
      = Host.dotGeneral (F := Ideal) (φ₁ := .f32) (φ₂ := .f32) Cert.ReferenceIdeal.dot_S50000x256_S256x16_S50000x16_1_0_0_1_n_n none
          (V c Cert.KernelIdeal.main_v47) (V c Cert.KernelIdeal.main_arg4) :=
  (Cert.KernelIdeal.RegionValue.array1 V c).trans (Cert.ReferenceIdeal.HostDense.dot16 _ _).symm

/-- From memories that agree on the arguments both idealized programs run, and end with the same class probabilities:
    the kernel's result buffer after its last stretch of host operations, which is the reference's after all of its
    operations. -/
theorem algebraic : Cert.algebraic_KernelIdeal_ReferenceIdeal := by
  intro m ρ m' ρ' _ hagree
  refine ⟨fun c => Cert.KernelIdeal.Gen.W11 m ρ c (Proc.devRef .tc Cert.KernelIdeal.main_v101),
    Cert.KernelIdeal.RunValue.run (F := Ideal) m ρ, ?_⟩
  refine (θ_run Cert.ReferenceIdeal.defs _ _).mono (fun _ h c =>
      ⟨(h c Cert.ReferenceIdeal.main_v101).trans ?_,
       (h c Cert.ReferenceIdeal.main_arg0).trans (Cert.Glue.ref_main_arg0 _),
       (h c Cert.ReferenceIdeal.main_arg1).trans (Cert.Glue.ref_main_arg1 _),
       (h c Cert.ReferenceIdeal.main_arg2).trans (Cert.Glue.ref_main_arg2 _),
       (h c Cert.ReferenceIdeal.main_arg3).trans (Cert.Glue.ref_main_arg3 _),
       (h c Cert.ReferenceIdeal.main_arg4).trans (Cert.Glue.ref_main_arg4 _),
       (h c Cert.ReferenceIdeal.main_arg5).trans (Cert.Glue.ref_main_arg5 _)⟩)
    (Cert.ReferenceIdeal.ValueP.run (F := Ideal) m' ρ')
  exact (Cert.Bridge.result_eq region0_is_dot region1_is_dot m ρ m' c
    (hagree c).1 (hagree c).2.1 (hagree c).2.2.1 (hagree c).2.2.2.1 (hagree c).2.2.2.2.1 (hagree c).2.2.2.2.2).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
